-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S1100000x64 : Shape := ⟨2, ![1100000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1100000x128 : Shape := ⟨2, ![1100000, 128]⟩
abbrev S128x128 : Shape := ⟨2, ![128, 128]⟩

abbrev nBuf : Space → Nat
  | .hbm => 72
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1100000, .i32⟩
  | .hbm, ⟨34, _⟩ => ⟨S1100000, .i1⟩
  | .hbm, ⟨35, _⟩ => ⟨S_, .i32⟩
  | .hbm, ⟨36, _⟩ => ⟨S1100000, .i32⟩
  | .hbm, ⟨37, _⟩ => ⟨S1100000, .i32⟩
  | .hbm, ⟨38, _⟩ => ⟨S1100000, .i32⟩
  | .hbm, ⟨39, _⟩ => ⟨S1100000x1, .i32⟩
  | .hbm, ⟨40, _⟩ => ⟨S1100000x64, .f32⟩
  | .hbm, ⟨41, _⟩ => ⟨S_, .f32⟩
  | .hbm, ⟨42, _⟩ => ⟨S100000x64, .f32⟩
  | .hbm, ⟨43, _⟩ => ⟨S1100000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1100000, .i32⟩
  | .hbm, ⟨53, _⟩ => ⟨S1100000, .i1⟩
  | .hbm, ⟨54, _⟩ => ⟨S_, .i32⟩
  | .hbm, ⟨55, _⟩ => ⟨S1100000, .i32⟩
  | .hbm, ⟨56, _⟩ => ⟨S1100000, .i32⟩
  | .hbm, ⟨57, _⟩ => ⟨S1100000, .i32⟩
  | .hbm, ⟨58, _⟩ => ⟨S1100000x1, .i32⟩
  | .hbm, ⟨59, _⟩ => ⟨S1100000x128, .f32⟩
  | .hbm, ⟨60, _⟩ => ⟨S_, .f32⟩
  | .hbm, ⟨61, _⟩ => ⟨S100000x128, .f32⟩
  | .hbm, ⟨62, _⟩ => ⟨S1100000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x64, .f32⟩
  | .hbm, ⟨71, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S128x64_S128x64_S128x128_d1 : Shape.Concatenates [S128x64, S128x64] S128x128 1
  concatenates_S64_S64_S128_d0 : Shape.Concatenates [S64, S64] S128 0
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S10000x128_d1_w32 : S10000x128.Iotas .tc 32 [1]
  slices_S100000x128_S100000x64_0_0 : S100000x128.Slices ![0, 0] S100000x64
  slices_S100000x128_S100000x64_0_64 : S100000x128.Slices ![0, 64] S100000x64
  scatter_S100000_S1100000x1_S1100000_n_0_0_1_wf : ScatterDims.WF S100000 S1100000x1 S1100000 [] [0] [0] 1
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x128_S10000x128_1_0_0_1_n_n_wf : DotDims.WF S10000x64 S64x128 S10000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S1100000x64 : Shape := ⟨2, ![1100000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000x64, .f32⟩
  | .hbm, ⟨81, _⟩ => ⟨S1100000x1, .f32⟩
  | .hbm, ⟨82, _⟩ => ⟨S1100000x64, .f32⟩
  | .hbm, ⟨83, _⟩ => ⟨S1100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1100000, .i32⟩
  | .hbm, ⟨94, _⟩ => ⟨S1100000, .i1⟩
  | .hbm, ⟨95, _⟩ => ⟨S_, .i32⟩
  | .hbm, ⟨96, _⟩ => ⟨S1100000, .i32⟩
  | .hbm, ⟨97, _⟩ => ⟨S1100000, .i32⟩
  | .hbm, ⟨98, _⟩ => ⟨S1100000, .i32⟩
  | .hbm, ⟨99, _⟩ => ⟨S1100000x1, .i32⟩
  | .hbm, ⟨100, _⟩ => ⟨S1100000x64, .f32⟩
  | .hbm, ⟨101, _⟩ => ⟨S1100000x1, .f32⟩
  | .hbm, ⟨102, _⟩ => ⟨S1100000x64, .f32⟩
  | .hbm, ⟨103, _⟩ => ⟨S1100000x64, .f32⟩
  | .hbm, ⟨104, _⟩ => ⟨S_, .f32⟩
  | .hbm, ⟨105, _⟩ => ⟨S100000x64, .f32⟩
  | .hbm, ⟨106, _⟩ => ⟨S1100000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x128_S100000x128_1_0_0_1_n_n_wf : DotDims.WF S100000x64 S64x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KernelRun.lean ====
/-
  The idealized kernel's run with its two results named.

  @main is three stretches of host operations, the first matrix kernel over ten row blocks, a stretch of host
  operations, the second matrix kernel over ten row blocks, and two final slices. The buffer contents at each boundary are
  a fold from the launch memory (`Gen.W0` … `Gen.W7`): a stretch applies its operations to what it finds, a kernel region
  replaces its output array by what its row blocks write back and leaves every other buffer alone. Every weakly fair
  execution terminates without a fault in a state whose unscoped buffers are `Gen.W7`; read at the two result buffers that
  is the statement below, and read at the eight arguments it is the launch memory.
-/
import proofs.«176023_j65481071395096_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last boundary's
    contents and the eight argument arrays as launched. -/
theorem run : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.KRun

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KBody.lean ====
/-
  The two kernel bodies' stored values, read at an entry, on the extended reals.

  Both kernels take a block of 10000 rows. The first stores, at row p and column q,
  `max (Σ_k x(p, k) · w(k, q) + b(0, q)) 0`: the rows times the weight matrix, plus the bias row, clipped below at zero
  (the change of float format of the product's operands is the identity here). The second stores `Σ_k x(p, k) · w(k, q) + b(0, q)`
  in the columns q < 64 and the minimum of that number and the literal 10 in the columns q ≥ 64.
-/
import proofs.«176023_j65481071395096_2_alg».proof.Proof.Gen.KernelIdeal.Skeleton
import proofs.«176023_j65481071395096_2_alg».proof.Proof.LibPlainMatmul
import Idealize.ShloMosaic.Lib.Pipeline.Value
import Idealize.ShloMosaic.Lib.ValueIdx
import Idealize.ShloMosaic.PureOps.Ideal.Laws
import Idealize.ShloMosaic.Lib.Affine

noncomputable section

namespace Cert.KernelIdeal.KBody

open Cert.KernelIdeal Cert.KernelIdeal.Gen Idealize.ShloMosaic Idealize.ShloMosaic.ValueIdx

/-- The bias row broadcast down the block's rows, read at (p, q): the row's entry q. -/
theorem bias_row_apply (b : FVec Ideal S1x128 .f32) (p : Fin 10000) (q : Fin 128) :
    broadcastTo S10000x128 (shapeCast S1x128 b shapeCasts_S1x128_S1x128) broadcasts_S1x128_S10000x128 (ix2 p q)
      = b (ix2 (0 : Fin 1) q) := by
  rw [shapeCast_self]
  refine broadcastTo_apply b broadcasts_S1x128_S10000x128 (ix2 p q) (ix2 (0 : Fin 1) q) fun a => ?_
  match a with
  | ⟨0, _⟩ => rfl
  | ⟨1, _⟩ => rfl

/-- The first kernel's stored value at (p, q). -/
theorem pay0_apply (x0 : Vec Ideal S10000x64 .f32) (x1 : Vec Ideal S64x128 .f32) (x2 : Vec Ideal S1x128 .f32)
    (p : Fin 10000) (q : Fin 128) :
    k0_pay1 (F := Ideal) x0 x1 x2 (ix2 p q)
      = max ((∑ k : Fin 64, x0 (ix2 p k) * x1 (ix2 k q)) + x2 (ix2 (0 : Fin 1) q)) (Ideal.ofBits .f32 0x00000000#32) := by
  unfold k0_pay1
  rw [maximumf_apply, addf_apply, broadcast_apply, bias_row_apply, shapeCast_self]
  congr 2
  exact Cert.PlainMatmul.matmul_zero_apply _ none _ _ p q

/-- The column test of the second kernel: the word "column q is below 64" is 1 exactly for q < 64. -/
theorem col_bit (q : Fin 128) : IntOp.cmpi .slt (BitVec.ofNat 32 q.val) 64#32 = 1#1 ↔ q.val < 64 := by
  have hq := q.isLt
  have h1 : (BitVec.ofNat 32 q.val).toNat = q.val := by
    rw [BitVec.toNat_ofNat]; exact Nat.mod_eq_of_lt (by omega)
  have h2 : (BitVec.ofNat 32 q.val).toInt = (q.val : Int) := by
    rw [BitVec.toInt_eq_toNat_of_lt (by rw [h1]; omega), h1]
  have h3 : (64#32 : BitVec 32).toInt = 64 := by decide
  rw [IntOp.cmpi_slt, h2, h3]
  omega

/-- The second kernel's value before the column split, at (p, q): the rows times the weights plus the bias row. -/
def lin1 (x0 : Vec Ideal S10000x128 .f32) (x1 : Vec Ideal S128x128 .f32) (x2 : Vec Ideal S1x128 .f32) (p : Fin 10000) (q : Fin 128) : EReal :=
  (∑ k : Fin 128, x0 (ix2 p k) * x1 (ix2 k q)) + x2 (ix2 (0 : Fin 1) q)

/-- The second kernel's stored value at (p, q): the linear value in the columns below 64, its minimum with the literal
    10 in the others. -/
theorem pay1_apply (x0 : Vec Ideal S10000x128 .f32) (x1 : Vec Ideal S128x128 .f32) (x2 : Vec Ideal S1x128 .f32)
    (p : Fin 10000) (q : Fin 128) :
    k1_pay1 (F := Ideal) x0 x1 x2 (ix2 p q)
      = if q.val < 64 then lin1 x0 x1 x2 p q else min (lin1 x0 x1 x2 p q) (Ideal.ofBits .f32 0x41200000#32) := by
  have hlin : (addf (matmul dot_S10000x128_S128x128_S10000x128_1_0_0_1_n_n none
        (truncf .bf16 (shapeCast S10000x128 x0 shapeCasts_S10000x128_S10000x128) bitsLt_bf16_f32)
        (truncf .bf16 (shapeCast S128x128 x1 shapeCasts_S128x128_S128x128) bitsLt_bf16_f32)
        (constant S10000x128 .f32 0x00000000#32))
      (broadcastTo S10000x128 (shapeCast S1x128 x2 shapeCasts_S1x128_S1x128) broadcasts_S1x128_S10000x128) :
        FVec Ideal S10000x128 .f32) (ix2 p q)
      = lin1 x0 x1 x2 p q := by
    rw [addf_apply, bias_row_apply, shapeCast_self, shapeCast_self]
    unfold lin1
    congr 1
    exact Cert.PlainMatmul.matmul_zero_apply _ none _ _ p q
  unfold k1_pay1
  rw [select_apply, minimumf_apply, broadcast_apply, hlin]
  have hbit : cmpi .slt (iota .tc S10000x128 32 [1] iota_S10000x128_d1_w32) (broadcast S10000x128 (64#32 : BitVec 32)) (ix2 p q)
      = IntOp.cmpi .slt (BitVec.ofNat 32 q.val) 64#32 := by
    show IntOp.cmpi .slt (iota .tc S10000x128 32 [1] iota_S10000x128_d1_w32 (ix2 p q)) _ = _
    rw [iota_single_apply]
    rfl
  rw [hbit]
  by_cases hq : q.val < 64
  · rw [if_pos hq, (col_bit q).mpr hq, select_one]
  · rw [if_neg hq, eq_zero_of_ne_one (fun h => hq ((col_bit q).mp h)), select_zero]
    rfl

end Cert.KernelIdeal.KBody

end
-- ==== Proof.KBlocks.lean ====
/-
  From row blocks to whole arrays: what each of the two matrix kernels leaves in its output array.

  Each kernel runs over ten blocks of 10000 rows. Block `t` reads rows `10000 t … 10000 t + 9999` of its first operand and the
  whole weight matrix and bias row, and writes back rows `10000 t … 10000 t + 9999` of the output. Since the stored value at
  (p, q) depends only on row p of the operand, block `t` of the output is block `t` of ONE function of the whole arrays:
  `G0 x w b (i, j) = max (Σ_k x(i, k) · w(k, j) + b(0, j)) 0` for the first kernel, and for the second
  `G1 x w b (i, j) = Σ_k x(i, k) · w(k, j) + b(0, j)` in the columns j < 64 and its minimum with the literal 10 in the columns
  j ≥ 64. The ten blocks cover the array (row i is in block i / 10000), so the array after the region is that function.
  Everything is stated at a parameter `V`, the buffer contents when the region is entered.
-/
import proofs.«176023_j65481071395096_2_alg».proof.Proof.Gen.KernelIdeal.Frame
import proofs.«176023_j65481071395096_2_alg».proof.Proof.KBody
import Idealize.ShloMosaic.Lib.Pipeline.Value

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first kernel's output as one function of its whole operands. -/
def G0 (x : FVec Ideal S100000x64 .f32) (w : FVec Ideal S64x128 .f32) (b : FVec Ideal S1x128 .f32) : FVec Ideal S100000x128 .f32 :=
  fun i => max ((∑ k : Fin 64, x (ix2 (i 0) k) * w (ix2 k (i 1))) + b (ix2 (0 : Fin 1) (i 1))) (Ideal.ofBits .f32 0x00000000#32)

/-- The second kernel's value before the column split, as one function of its whole operands. -/
def lin (x : FVec Ideal S100000x128 .f32) (w : FVec Ideal S128x128 .f32) (b : FVec Ideal S1x128 .f32) (i : S100000x128.Idx) : EReal :=
  (∑ k : Fin 128, x (ix2 (i 0) k) * w (ix2 k (i 1))) + b (ix2 (0 : Fin 1) (i 1))

/-- The second kernel's output as one function of its whole operands. -/
def G1 (x : FVec Ideal S100000x128 .f32) (w : FVec Ideal S128x128 .f32) (b : FVec Ideal S1x128 .f32) : FVec Ideal S100000x128 .f32 :=
  fun i => if (i 1).val < 64 then lin x w b i else min (lin x w b i) (Ideal.ofBits .f32 0x41200000#32)

/-! ## The first kernel -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block: if the block's operand entries are the whole arrays' entries at the output index's row and
    column, the stored value is `G0` of the whole arrays at that index. -/
theorem blk0_eq (X : FVec Ideal S100000x64 .f32) (Wm : FVec Ideal S64x128 .f32) (B : FVec Ideal S1x128 .f32)
    (b0 : S10000x64.Idx → EReal) (b1 : S64x128.Idx → EReal) (b2 : S1x128.Idx → EReal) (i : S100000x128.Idx) (p : Fin 10000) (q : Fin 128)
    (hA : ∀ k : Fin 64, b0 (ix2 p k) = X (ix2 (i 0) k)) (hB : ∀ k : Fin 64, b1 (ix2 k q) = Wm (ix2 k (i 1)))
    (hC : b2 (ix2 (0 : Fin 1) q) = B (ix2 (0 : Fin 1) (i 1))) :
    max ((∑ k : Fin 64, b0 (ix2 p k) * b1 (ix2 k q)) + b2 (ix2 (0 : Fin 1) q)) (Ideal.ofBits .f32 0x00000000#32) = G0 X Wm B i := by
  unfold G0
  simp only [hA, hB, hC]

set_option maxHeartbeats 2000000 in
/-- WHAT ROW BLOCK `t` WRITES BACK is block `t` of `G0` of the three input arrays as the region finds them. -/
theorem flushed0 (c : Dev nD) (t : Fin cfg0.N) :
    (dat0 V c).flushed 3 t = ((cfg0.win 3).blk t).view.read (Elt Ideal) (G0 (V c main_v29) (V c main_arg2) (V c main_v30)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x128) hz, View.ld_unit_zero (S := S1x128) hz]
  obtain ⟨e00, e01, e10, e11, e20, e21, e30, e31⟩ := idx_facts0 t
  funext j
  obtain ⟨p, q, rfl⟩ : ∃ (p : Fin 10000) (q : Fin 128), j = ix2 p q := ⟨j 0, j 1, eq_ix2 j⟩
  have hA : ∀ k : Fin 64, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have hB : ∀ k : Fin 64, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 64 + 1 * k.val = k.val; omega
    | ⟨1, _⟩ => show win0_1.index t (1 : Fin 2) * 128 + 1 * q.val = win0_3.index t (1 : Fin 2) * 128 + 1 * q.val; omega
  have hC : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  refine (KBody.pay0_apply (iblk0 V c 0 t) (iblk0 V c 1 t) (iblk0 V c 2 t) p q).trans ?_
  exact blk0_eq (V c main_v29) (V c main_arg2) (V c main_v30) (iblk0 V c 0 t) (iblk0 V c 1 t) (iblk0 V c 2 t)
    (((cfg0.win 3).blk t).view.emb (ix2 p q)) p q
    (fun k => congrArg (V c main_v29) (hA k)) (fun k => congrArg (V c main_arg2) (hB k)) (congrArg (V c main_v30) hC)

/-- An index of the output array is in row block `t` iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v31).slice (win0_3.rect t)).set ↔ _
  rw [View.set_slice_whole, Rect.mem_set_unit]
  exact Iff.rfl

/-- Every row of the output array lies in the row block numbered by the row's quotient by 10000: the ten blocks cover it. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 10000 < cfg0.N := by
    show (i 0).val / 10000 < grid0.N
    rw [N_0]; omega
  refine ⟨⟨(i 0).val / 10000, hN⟩, flush0_3 _, ?_⟩
  rw [mem_blk0]
  obtain ⟨e00, e01, e10, e11, e20, e21, e30, e31⟩ := idx_facts0 ⟨(i 0).val / 10000, hN⟩
  intro a
  match a with
  | ⟨0, _⟩ =>
    show win0_3.index ⟨(i 0).val / 10000, hN⟩ (0 : Fin 2) * 10000 ≤ (i 0).val ∧ (i 0).val < win0_3.index ⟨(i 0).val / 10000, hN⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, hN⟩ (1 : Fin 2) * 128 ≤ (i 1).val ∧ (i 1).val < win0_3.index ⟨(i 0).val / 10000, hN⟩ (1 : Fin 2) * 128 + 128
    rw [e31]; omega

/-- THE OUTPUT ARRAY after the region: `G0` of the three input arrays as the region finds them. -/
theorem final0 (c : Dev nD) : (dat0 V c).arrAt 3 cfg0.N = G0 (V c main_v29) (V c main_arg2) (V c main_v30) :=
  (dat0 V c).arrAt_eq_of_cover 3 _ (fun t _ => flushed0 V c t) (cover0)

/-! ## The second kernel -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a block: if the block's operand entries are the whole arrays' entries at the output index's row and
    column, the stored value is `G1` of the whole arrays at that index. -/
theorem blk1_eq (X : FVec Ideal S100000x128 .f32) (Wm : FVec Ideal S128x128 .f32) (B : FVec Ideal S1x128 .f32)
    (b0 : S10000x128.Idx → EReal) (b1 : S128x128.Idx → EReal) (b2 : S1x128.Idx → EReal) (i : S100000x128.Idx) (p : Fin 10000) (q : Fin 128)
    (hA : ∀ k : Fin 128, b0 (ix2 p k) = X (ix2 (i 0) k)) (hB : ∀ k : Fin 128, b1 (ix2 k q) = Wm (ix2 k (i 1)))
    (hC : b2 (ix2 (0 : Fin 1) q) = B (ix2 (0 : Fin 1) (i 1))) (hq : (i 1).val = q.val) :
    (if q.val < 64 then KBody.lin1 b0 b1 b2 p q else min (KBody.lin1 b0 b1 b2 p q) (Ideal.ofBits .f32 0x41200000#32)) = G1 X Wm B i := by
  have hlin : KBody.lin1 b0 b1 b2 p q = lin X Wm B i := by
    unfold KBody.lin1 lin
    simp only [hA, hB, hC]
  unfold G1
  rw [hlin, hq]

set_option maxHeartbeats 2000000 in
/-- WHAT ROW BLOCK `t` WRITES BACK is block `t` of `G1` of the three input arrays as the region finds them. -/
theorem flushed1 (c : Dev nD) (t : Fin cfg1.N) :
    (dat1 V c).flushed 3 t = ((cfg1.win 3).blk t).view.read (Elt Ideal) (G1 (V c main_v45) (V c main_v46) (V c main_v48)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts1 t
  funext j
  obtain ⟨p, q, rfl⟩ : ∃ (p : Fin 10000) (q : Fin 128), j = ix2 p q := ⟨j 0, j 1, eq_ix2 j⟩
  have hA : ∀ k : Fin 128, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  have hB : ∀ k : Fin 128, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have hC : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  refine (KBody.pay1_apply (iblk1 V c 0 t) (iblk1 V c 1 t) (iblk1 V c 2 t) p q).trans ?_
  exact blk1_eq (V c main_v45) (V c main_v46) (V c main_v48) (iblk1 V c 0 t) (iblk1 V c 1 t) (iblk1 V c 2 t)
    (((cfg1.win 3).blk t).view.emb (ix2 p q)) p q
    (fun k => congrArg (V c main_v45) (hA k)) (fun k => congrArg (V c main_v46) (hB k)) (congrArg (V c main_v48) hC)
    (by show win1_3.index t (1 : Fin 2) * 128 + 1 * q.val = q.val; omega)

/-- An index of the output array is in row block `t` iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v49).slice (win1_3.rect t)).set ↔ _
  rw [View.set_slice_whole, Rect.mem_set_unit]
  exact Iff.rfl

/-- Every row of the output array lies in the row block numbered by the row's quotient by 10000: the ten blocks cover it. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 10000 < cfg1.N := by
    show (i 0).val / 10000 < grid1.N
    rw [N_1]; omega
  refine ⟨⟨(i 0).val / 10000, hN⟩, flush1_3 _, ?_⟩
  rw [mem_blk1]
  obtain ⟨e00, e01, e10, e11, e20, e21, e30, e31⟩ := idx_facts1 ⟨(i 0).val / 10000, hN⟩
  intro a
  match a with
  | ⟨0, _⟩ =>
    show win1_3.index ⟨(i 0).val / 10000, hN⟩ (0 : Fin 2) * 10000 ≤ (i 0).val ∧ (i 0).val < win1_3.index ⟨(i 0).val / 10000, hN⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, hN⟩ (1 : Fin 2) * 128 ≤ (i 1).val ∧ (i 1).val < win1_3.index ⟨(i 0).val / 10000, hN⟩ (1 : Fin 2) * 128 + 128
    rw [e31]; omega

/-- THE OUTPUT ARRAY after the region: `G1` of the three input arrays as the region finds them. -/
theorem final1 (c : Dev nD) : (dat1 V c).arrAt 3 cfg1.N = G1 (V c main_v45) (V c main_v46) (V c main_v48) :=
  (dat1 V c).arrAt_eq_of_cover 3 _ (fun t _ => flushed1 V c t) (cover1)

end Cert.KernelIdeal.KBlocks

end
-- ==== Proof.KStretch.lean ====
/-
  The host operations around the two matrix kernels, as functions of the buffers they read.

  Before each kernel the host normalises and aggregates a feature matrix over the graph's edges: with `dcol` the column of
  node normalisers, `src` and `dst` the edges' source and target node numbers (an edge list followed by one self-loop per node),
      aggregate x = (scatter-add over dst of (x · dcol)[src']) · dcol,
  where `src'` is `src` with negative numbers shifted up by the node count (the row a gather reads is then that number clamped into
  range) and the scatter-add drops an edge whose target is outside the node range. The same expression is taken at width 64
  (the input features) and at width 128 (the hidden features). After the second kernel the host cuts its 128 columns into
  the two results of 64 columns each; before it, the two second-layer weight matrices are joined along the columns and the two
  bias vectors end to end.
-/
import proofs.«176023_j65481071395096_2_alg».proof.KernelIdeal
import proofs.«176023_j65481071395096_2_alg».proof.Proof.Gen.KernelIdeal

noncomputable section

namespace Cert.KernelIdeal.KStretch

open Cert.KernelIdeal Cert.KernelIdeal.Gen Idealize.ShloMosaic

variable {F : FTy → Type} [FloatOps F]

/-- The index column a gather reads: negative node numbers shifted up by the node count, as a column. -/
def normCol (src : IVec S1100000 32) : IVec S1100000x1 32 :=
  broadcastInDim S1100000x1 ![0] bcast_S1100000_S1100000x1_0
    (select (cmpi .slt src (broadcastInDim S1100000 ![] bcast_S_S1100000 (constantI S_ 32 0#32)))
      (addi src (broadcastInDim S1100000 ![] bcast_S_S1100000 (constantI S_ 32 100000#32))) src)

/-- The index column a scatter reads: the node numbers as a column. -/
def col (dst : IVec S1100000 32) : IVec S1100000x1 32 :=
  broadcastInDim S1100000x1 ![0] bcast_S1100000_S1100000x1_0 dst

/-- The normalisers as a column. -/
def dcolOf (dinv : FVec F S100000 .f32) : FVec F S100000x1 .f32 :=
  shapeCast S100000x1 dinv shapeCasts_S100000_S100000x1

/-- The normalised aggregate at width 64. -/
def agg64 (x : FVec F S100000x64 .f32) (dcol : FVec F S100000x1 .f32) (src dst : IVec S1100000 32) : FVec F S100000x64 .f32 :=
  mulf
    (Host.scatterAdd scatter_S100000x64_S1100000x1_S1100000x64_1_0_0_1
      (broadcastInDim S100000x64 ![] bcast_S_S100000x64 (constant S_ .f32 0x00000000#32))
      (col dst)
      (Host.gather gather_S100000x64_S1100000x1_S1100000x64_1_0_n_n_0_1_164
        (mulf x (broadcastInDim S100000x64 ![0, 1] bcast_S100000x1_S100000x64_0_1 dcol))
        (normCol src)))
    (broadcastInDim S100000x64 ![0, 1] bcast_S100000x1_S100000x64_0_1 dcol)

/-- The normalised aggregate at width 128. -/
def agg128 (h : FVec F S100000x128 .f32) (dcol : FVec F S100000x1 .f32) (src dst : IVec S1100000 32) : FVec F S100000x128 .f32 :=
  mulf
    (Host.scatterAdd scatter_S100000x128_S1100000x1_S1100000x128_1_0_0_1
      (broadcastInDim S100000x128 ![] bcast_S_S100000x128 (constant S_ .f32 0x00000000#32))
      (col dst)
      (Host.gather gather_S100000x128_S1100000x1_S1100000x128_1_0_n_n_0_1_1128
        (mulf h (broadcastInDim S100000x128 ![0, 1] bcast_S100000x1_S100000x128_0_1 dcol))
        (normCol src)))
    (broadcastInDim S100000x128 ![0, 1] bcast_S100000x1_S100000x128_0_1 dcol)

/-- The two second-layer weight matrices joined along the columns. -/
def wcat (a4 a6 : FVec F S128x64 .f32) : FVec F S128x128 .f32 :=
  concatenate S128x128 1 [⟨S128x64, a4⟩, ⟨S128x64, a6⟩] concatenates_S128x64_S128x64_S128x128_d1

/-- The two second-layer bias vectors joined end to end, as a row. -/
def bcat (a5 a7 : FVec F S64 .f32) : FVec F S1x128 .f32 :=
  shapeCast S1x128 (concatenate S128 0 [⟨S64, a5⟩, ⟨S64, a7⟩] concatenates_S64_S64_S128_d0) shapeCasts_S128_S1x128

/-- The first-layer bias vector as a row. -/
def brow (a3 : FVec F S128 .f32) : FVec F S1x128 .f32 := shapeCast S1x128 a3 shapeCasts_S128_S1x128

/-- The first 64 columns of the second kernel's output. -/
def cutLo (y : FVec F S100000x128 .f32) : FVec F S100000x64 .f32 :=
  extractStridedSlice S100000x64 ![0, 0] y slices_S100000x128_S100000x64_0_0

/-- The last 64 columns of the second kernel's output. -/
def cutHi (y : FVec F S100000x128 .f32) : FVec F S100000x64 .f32 :=
  extractStridedSlice S100000x64 ![0, 64] y slices_S100000x128_S100000x64_0_64

end Cert.KernelIdeal.KStretch

end
-- ==== Proof.KValue.lean ====
/-
  The idealized kernel's two result arrays as one expression of the eight argument arrays.

  The buffer contents at the end of @main are a fold from the launch memory through three stretches of host operations, the
  first matrix kernel, a stretch, the second matrix kernel, and the two final slices. Read at the result buffers and walked
  back one boundary at a time this gives, with `x, ei, W₁, b₁, W_μ, b_μ, W_σ, b_σ` the arguments, `src, dst` the edge lists with
  the self-loops appended and `dinv` the nodes' normalisers (all three functions of `ei` alone, by the same operations as in
  the reference program):
      hidden = G0 (agg64 x dinv src dst) W₁ b₁              (first kernel: the aggregated features transformed, clipped at 0)
      out    = G1 (agg128 hidden dinv src dst) [W_μ | W_σ] [b_μ | b_σ]    (second kernel, both halves at once)
      results = the first 64 columns of out, and the last 64 columns of out.
-/
import proofs.«176023_j65481071395096_2_alg».proof.Proof.Gen.KernelIdeal.Frame
import proofs.«176023_j65481071395096_2_alg».proof.Proof.KBlocks
import proofs.«176023_j65481071395096_2_alg».proof.Proof.KStretch
import proofs.«176023_j65481071395096_2_alg».proof.Proof.RefReadP
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Cert.KernelIdeal.KStretch Cert.KernelIdeal.KBlocks

variable (m : (ℓ : Loc nD τ sig) → Buf (Elt Ideal) ℓ) (ρ : Dev nD → PrngReg)

/-- The edges' source node numbers, by the reference program's own operations on the edge list. -/
abbrev srcOf (c : Dev nD) : IVec S1100000 32 := Cert.ReferenceIdeal.ReadP.val_main_v3 (F := Ideal) (m ((c : Thread nD τ).loc main_arg1))
/-- The edges' target node numbers. -/
abbrev dstOf (c : Dev nD) : IVec S1100000 32 := Cert.ReferenceIdeal.ReadP.val_main_v6 (F := Ideal) (m ((c : Thread nD τ).loc main_arg1))
/-- The nodes' normalisers. -/
abbrev dinvOf (c : Dev nD) : FVec Ideal S100000 .f32 := Cert.ReferenceIdeal.ReadP.val_main_v14 (F := Ideal) (m ((c : Thread nD τ).loc main_arg1))

/-! ## The first kernel's entry contents (after the three leading stretches) -/

set_option maxHeartbeats 4000000 in
theorem v3_entry0 (c : Dev nD) : V3 m ρ c main_v3 = srcOf m c := by
  show StableHlo.after hostOps0_2 (StableHlo.after hostOps0_1 (StableHlo.after hostOps0 (W0 m ρ c))) (Proc.devRef .tc main_v3) = _
  after_results_simp
  rfl

set_option maxHeartbeats 4000000 in
theorem v6_entry0 (c : Dev nD) : V3 m ρ c main_v6 = dstOf m c := by
  show StableHlo.after hostOps0_2 (StableHlo.after hostOps0_1 (StableHlo.after hostOps0 (W0 m ρ c))) (Proc.devRef .tc main_v6) = _
  after_results_simp
  rfl

/-! The normalisers, one boundary at a time: the degree's sign test and inverse square root after the first stretch, the
    outlined choice between that and zero after the second, the column after the third. -/

set_option maxHeartbeats 4000000 in
theorem v12_b1 (c : Dev nD) : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results_simp
  rfl

set_option maxHeartbeats 4000000 in
theorem v13_b1 (c : Dev nD) : W1 m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  after_results_simp
  rfl

set_option maxHeartbeats 4000000 in
theorem cst2_b1 (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

section Stretch01
variable (Vx : Valuation τ sig (Elt Ideal))
set_option maxHeartbeats 4000000 in
theorem stretch01_v14 : StableHlo.after hostOps0_1 Vx (Proc.devRef .tc main_v14)
    = select (Vx (Proc.devRef .tc main_v12)) (Vx (Proc.devRef .tc main_v13))
        (broadcastInDim S100000 ![] bcast_S_S100000 (id (Vx (Proc.devRef .tc main_cst_2)))) := by
  after_results
  rfl
end Stretch01

theorem v14_b2 (c : Dev nD) : W2 m ρ c (Proc.devRef .tc main_v14) = dinvOf m c := by
  show StableHlo.after hostOps0_1 (W1 m ρ c) (Proc.devRef .tc main_v14) = _
  rw [stretch01_v14, v12_b1, v13_b1, cst2_b1]
  rfl

section Stretch02
variable (Vx : Valuation τ sig (Elt Ideal))
set_option maxHeartbeats 4000000 in
theorem stretch02_v15 : StableHlo.after hostOps0_2 Vx (Proc.devRef .tc main_v15) = dcolOf (F := Ideal) (Vx (Proc.devRef .tc main_v14)) := by
  after_results_simp
  rfl
set_option maxHeartbeats 8000000 in
theorem stretch02_v29 : StableHlo.after hostOps0_2 Vx (Proc.devRef .tc main_v29)
    = agg64 (F := Ideal) (Vx (Proc.devRef .tc main_arg0)) (dcolOf (F := Ideal) (Vx (Proc.devRef .tc main_v14)))
        (Vx (Proc.devRef .tc main_v3)) (Vx (Proc.devRef .tc main_v6)) := by
  after_results_simp
  rfl
end Stretch02

set_option maxHeartbeats 4000000 in
theorem v3_b2 (c : Dev nD) : W2 m ρ c (Proc.devRef .tc main_v3) = srcOf m c := by
  show StableHlo.after hostOps0_1 (StableHlo.after hostOps0 (W0 m ρ c)) (Proc.devRef .tc main_v3) = _
  after_results_simp
  rfl

set_option maxHeartbeats 4000000 in
theorem v6_b2 (c : Dev nD) : W2 m ρ c (Proc.devRef .tc main_v6) = dstOf m c := by
  show StableHlo.after hostOps0_1 (StableHlo.after hostOps0 (W0 m ρ c)) (Proc.devRef .tc main_v6) = _
  after_results_simp
  rfl

set_option maxHeartbeats 4000000 in
theorem arg0_b2 (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results_simp <;> rfl

theorem v15_entry0 (c : Dev nD) : V3 m ρ c main_v15 = dcolOf (F := Ideal) (dinvOf m c) := by
  show StableHlo.after hostOps0_2 (W2 m ρ c) (Proc.devRef .tc main_v15) = _
  rw [stretch02_v15, v14_b2]

theorem v29_entry0 (c : Dev nD) :
    V3 m ρ c main_v29 = agg64 (F := Ideal) (m ((c : Thread nD τ).loc main_arg0)) (dcolOf (F := Ideal) (dinvOf m c)) (srcOf m c) (dstOf m c) := by
  show StableHlo.after hostOps0_2 (W2 m ρ c) (Proc.devRef .tc main_v29) = _
  rw [stretch02_v29, v14_b2, v3_b2, v6_b2, arg0_b2]

set_option maxHeartbeats 4000000 in
theorem v30_entry0 (c : Dev nD) : V3 m ρ c main_v30 = brow (F := Ideal) (m ((c : Thread nD τ).loc main_arg3)) := by
  show StableHlo.after hostOps0_2 (StableHlo.after hostOps0_1 (StableHlo.after hostOps0 (W0 m ρ c))) (Proc.devRef .tc main_v30) = _
  after_results_simp
  rfl

set_option maxHeartbeats 4000000 in
theorem arg_entry0 (c : Dev nD) (b : Ref sig .tc) (hb : b = main_arg2 ∨ b = main_arg4 ∨ b = main_arg5 ∨ b = main_arg6 ∨ b = main_arg7) :
    V3 m ρ c b = m ((c : Thread nD τ).loc b) := by
  rcases hb with rfl | rfl | rfl | rfl | rfl <;>
  · show StableHlo.after hostOps0_2 (StableHlo.after hostOps0_1 (StableHlo.after hostOps0 (W0 m ρ c))) (Proc.devRef .tc _) = _
    after_results_simp <;> rfl

/-! ## The first kernel's output -/

/-- The hidden features the first kernel leaves. -/
abbrev hiddenOf (c : Dev nD) : FVec Ideal S100000x128 .f32 :=
  G0 (agg64 (F := Ideal) (m ((c : Thread nD τ).loc main_arg0)) (dcolOf (F := Ideal) (dinvOf m c)) (srcOf m c) (dstOf m c))
    (m ((c : Thread nD τ).loc main_arg2)) (brow (F := Ideal) (m ((c : Thread nD τ).loc main_arg3)))

theorem v31_exit0 (c : Dev nD) : V4 m ρ c main_v31 = hiddenOf m c := by
  show W4 m ρ c (Proc.devRef .tc (Pipeline.arrRef spec0 3)) = _
  rw [W4_arr, KBlocks.final0 (V3 m ρ) c, v29_entry0, v30_entry0, arg_entry0 m ρ c main_arg2 (Or.inl rfl)]

theorem keep_exit0 (c : Dev nD) (b : Ref sig .tc) (hb : ∀ w, Pipeline.arrRef spec0 w ≠ b) : V4 m ρ c b = V3 m ρ c b :=
  W4_of_ne m ρ c b hb

/-! ## The second kernel's entry contents (after the middle stretch) -/

section Stretch1
variable (Vx : Valuation τ sig (Elt Ideal))

set_option maxHeartbeats 8000000 in
theorem stretch1_v45 : StableHlo.after hostOps1 Vx (Proc.devRef .tc main_v45)
    = agg128 (F := Ideal) (Vx (Proc.devRef .tc main_v31)) (Vx (Proc.devRef .tc main_v15)) (Vx (Proc.devRef .tc main_v3)) (Vx (Proc.devRef .tc main_v6)) := by
  after_results_simp
  rfl

set_option maxHeartbeats 4000000 in
theorem stretch1_v46 : StableHlo.after hostOps1 Vx (Proc.devRef .tc main_v46)
    = wcat (F := Ideal) (Vx (Proc.devRef .tc main_arg4)) (Vx (Proc.devRef .tc main_arg6)) := by
  after_results_simp
  rfl

set_option maxHeartbeats 4000000 in
theorem stretch1_v48 : StableHlo.after hostOps1 Vx (Proc.devRef .tc main_v48)
    = bcat (F := Ideal) (Vx (Proc.devRef .tc main_arg5)) (Vx (Proc.devRef .tc main_arg7)) := by
  after_results_simp
  rfl

end Stretch1

theorem v45_entry1 (c : Dev nD) : V5 m ρ c main_v45 = agg128 (F := Ideal) (hiddenOf m c) (dcolOf (F := Ideal) (dinvOf m c)) (srcOf m c) (dstOf m c) := by
  show StableHlo.after hostOps1 (W4 m ρ c) (Proc.devRef .tc main_v45) = _
  rw [stretch1_v45]
  have h31 : W4 m ρ c (Proc.devRef .tc main_v31) = hiddenOf m c := v31_exit0 m ρ c
  have h15 : W4 m ρ c (Proc.devRef .tc main_v15) = dcolOf (F := Ideal) (dinvOf m c) := (keep_exit0 m ρ c main_v15 (by decide)).trans (v15_entry0 m ρ c)
  have h3 : W4 m ρ c (Proc.devRef .tc main_v3) = srcOf m c := (keep_exit0 m ρ c main_v3 (by decide)).trans (v3_entry0 m ρ c)
  have h6 : W4 m ρ c (Proc.devRef .tc main_v6) = dstOf m c := (keep_exit0 m ρ c main_v6 (by decide)).trans (v6_entry0 m ρ c)
  rw [h31, h15, h3, h6]

theorem v46_entry1 (c : Dev nD) : V5 m ρ c main_v46 = wcat (F := Ideal) (m ((c : Thread nD τ).loc main_arg4)) (m ((c : Thread nD τ).loc main_arg6)) := by
  show StableHlo.after hostOps1 (W4 m ρ c) (Proc.devRef .tc main_v46) = _
  rw [stretch1_v46]
  have h4 : W4 m ρ c (Proc.devRef .tc main_arg4) = m ((c : Thread nD τ).loc main_arg4) :=
    (keep_exit0 m ρ c main_arg4 (by decide)).trans (arg_entry0 m ρ c main_arg4 (Or.inr (Or.inl rfl)))
  have h6 : W4 m ρ c (Proc.devRef .tc main_arg6) = m ((c : Thread nD τ).loc main_arg6) :=
    (keep_exit0 m ρ c main_arg6 (by decide)).trans (arg_entry0 m ρ c main_arg6 (Or.inr (Or.inr (Or.inr (Or.inl rfl)))))
  rw [h4, h6]

theorem v48_entry1 (c : Dev nD) : V5 m ρ c main_v48 = bcat (F := Ideal) (m ((c : Thread nD τ).loc main_arg5)) (m ((c : Thread nD τ).loc main_arg7)) := by
  show StableHlo.after hostOps1 (W4 m ρ c) (Proc.devRef .tc main_v48) = _
  rw [stretch1_v48]
  have h5 : W4 m ρ c (Proc.devRef .tc main_arg5) = m ((c : Thread nD τ).loc main_arg5) :=
    (keep_exit0 m ρ c main_arg5 (by decide)).trans (arg_entry0 m ρ c main_arg5 (Or.inr (Or.inr (Or.inl rfl))))
  have h7 : W4 m ρ c (Proc.devRef .tc main_arg7) = m ((c : Thread nD τ).loc main_arg7) :=
    (keep_exit0 m ρ c main_arg7 (by decide)).trans (arg_entry0 m ρ c main_arg7 (Or.inr (Or.inr (Or.inr (Or.inr rfl)))))
  rw [h5, h7]

/-! ## The second kernel's output and the two results -/

/-- What the second kernel leaves: both halves of the second layer at once. -/
abbrev outOf (c : Dev nD) : FVec Ideal S100000x128 .f32 :=
  G1 (agg128 (F := Ideal) (hiddenOf m c) (dcolOf (F := Ideal) (dinvOf m c)) (srcOf m c) (dstOf m c))
    (wcat (F := Ideal) (m ((c : Thread nD τ).loc main_arg4)) (m ((c : Thread nD τ).loc main_arg6)))
    (bcat (F := Ideal) (m ((c : Thread nD τ).loc main_arg5)) (m ((c : Thread nD τ).loc main_arg7)))

theorem v49_exit1 (c : Dev nD) : V6 m ρ c main_v49 = outOf m c := by
  show W6 m ρ c (Proc.devRef .tc (Pipeline.arrRef spec1 3)) = _
  rw [W6_arr, KBlocks.final1 (V5 m ρ) c, v45_entry1, v46_entry1, v48_entry1]

section Stretch2
variable (Vx : Valuation τ sig (Elt Ideal))
theorem stretch2_v50 : StableHlo.after hostOps2 Vx (Proc.devRef .tc main_v50) = cutLo (F := Ideal) (Vx (Proc.devRef .tc main_v49)) := by
  after_results
  rfl
theorem stretch2_v51 : StableHlo.after hostOps2 Vx (Proc.devRef .tc main_v51) = cutHi (F := Ideal) (Vx (Proc.devRef .tc main_v49)) := by
  after_results
  rfl
end Stretch2

/-- THE FIRST RESULT at the end of @main. -/
theorem result0 (c : Dev nD) : W7 m ρ c (Proc.devRef .tc main_v50) = cutLo (F := Ideal) (outOf m c) := by
  show StableHlo.after hostOps2 (W6 m ρ c) (Proc.devRef .tc main_v50) = _
  rw [stretch2_v50]
  exact congrArg (cutLo (F := Ideal)) (v49_exit1 m ρ c)

/-- THE SECOND RESULT at the end of @main. -/
theorem result1 (c : Dev nD) : W7 m ρ c (Proc.devRef .tc main_v51) = cutHi (F := Ideal) (outOf m c) := by
  show StableHlo.after hostOps2 (W6 m ρ c) (Proc.devRef .tc main_v51) = _
  rw [stretch2_v51]
  exact congrArg (cutHi (F := Ideal)) (v49_exit1 m ρ c)

end Cert.KernelIdeal.KValue

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.GcnSpec.lean ====
/-
  Two orders of computing a two-layer graph-convolution encoder, as index-by-index formulas on the extended reals.

  The data of the graph: every edge `e` has a source row `gs e`, lands on a target row `v` when `hit e v` holds (an edge whose
  target is outside the node range lands nowhere), and `dv u` is node `u`'s normaliser (the inverse square root of its
  in-degree). A layer with weights `W` and bias `b` sends features `X` to
      Σ_{e lands on v} (Σ_k X (gs e) k · W k c) · (dv (gs e) · dv (gd e)) + b c            (`layerT`: transform, then aggregate)
  where `gd e` is the edge's target row as a gather reads it; aggregating first,
      Σ_k ((Σ_{e lands on v} X (gs e) k · dv (gs e)) · dv v) · W k c + b c                  (`layerA`: aggregate, then transform)
  is the same number when every entry is real and `gd e = v` for the edges that land on `v` (`layerA_eq_layerT`, by the layer
  law). The encoder is a first layer clipped below at zero followed by two second layers on the clipped features, the second
  of them clipped above at a constant `ten`.
-/
import proofs.«176023_j65481071395096_2_alg».proof.Proof.LibGcnLayer

open scoped BigOperators

noncomputable section

namespace Cert.GcnSpec

open Cert.GcnLaw

section
variable {N E : ℕ} (dv : Fin N → EReal) (gs gd : Fin E → Fin N) (hit : Fin E → Fin N → Prop) [∀ e v, Decidable (hit e v)]

/-- A layer in the order transform, then aggregate. -/
def layerT {K D : ℕ} (X : Fin N → Fin K → EReal) (W : Fin K → Fin D → EReal) (b : Fin D → EReal) (v : Fin N) (c : Fin D) : EReal :=
  (∑ e ∈ Finset.univ.filter (fun e => hit e v), (∑ k, X (gs e) k * W k c) * (dv (gs e) * dv (gd e))) + b c

/-- The normalised aggregate of the features over the edges that land on `v`. -/
def agg {K : ℕ} (X : Fin N → Fin K → EReal) (v : Fin N) (k : Fin K) : EReal :=
  (∑ e ∈ Finset.univ.filter (fun e => hit e v), X (gs e) k * dv (gs e)) * dv v

/-- A layer in the order aggregate, then transform. -/
def layerA {K D : ℕ} (X : Fin N → Fin K → EReal) (W : Fin K → Fin D → EReal) (b : Fin D → EReal) (v : Fin N) (c : Fin D) : EReal :=
  (∑ k, agg dv gs hit X v k * W k c) + b c

/-- The two orders agree on real entries, when the gathered target row of an edge that lands on `v` is `v`. -/
theorem layerA_eq_layerT {K D : ℕ} (X : Fin N → Fin K → EReal) (W : Fin K → Fin D → EReal) (b : Fin D → EReal)
    (hX : ∀ u k, IsReal (X u k)) (hW : ∀ k c, IsReal (W k c)) (hdv : ∀ u, IsReal (dv u))
    (hgd : ∀ e v, hit e v → gd e = v) (v : Fin N) (c : Fin D) :
    layerA dv gs hit X W b v c = layerT dv gs gd hit X W b v c := by
  unfold layerA layerT agg
  congr 1
  rw [layer_law (Finset.univ.filter fun e => hit e v) (fun e k => X (gs e) k) (fun e => dv (gs e)) (dv v) (fun k => W k c)
    (fun e k => hX _ _) (fun e => hdv _) (hdv v) (fun k => hW k c)]
  refine Finset.sum_congr rfl fun e he => ?_
  rw [hgd e v (Finset.mem_filter.mp he).2]

/-- A layer's value on real data is real. -/
theorem isReal_layerA {K D : ℕ} (X : Fin N → Fin K → EReal) (W : Fin K → Fin D → EReal) (b : Fin D → EReal)
    (hX : ∀ u k, IsReal (X u k)) (hW : ∀ k c, IsReal (W k c)) (hb : ∀ c, IsReal (b c)) (hdv : ∀ u, IsReal (dv u))
    (v : Fin N) (c : Fin D) : IsReal (layerA dv gs hit X W b v c) := by
  unfold layerA agg
  refine IsReal.add (IsReal.sum _ _ fun k _ => IsReal.mul (IsReal.mul (IsReal.sum _ _ fun e _ => IsReal.mul (hX _ _) (hdv _)) (hdv v)) (hW k c)) (hb c)

/-- The hidden features in the order aggregate, then transform: the first layer clipped below at zero. -/
def hiddenA {K H : ℕ} (X : Fin N → Fin K → EReal) (W1 : Fin K → Fin H → EReal) (b1 : Fin H → EReal) (u : Fin N) (k : Fin H) : EReal :=
  max (layerA dv gs hit X W1 b1 u k) 0

/-- The hidden features in the order transform, then aggregate. -/
def hiddenT {K H : ℕ} (X : Fin N → Fin K → EReal) (W1 : Fin K → Fin H → EReal) (b1 : Fin H → EReal) (u : Fin N) (k : Fin H) : EReal :=
  max (layerT dv gs gd hit X W1 b1 u k) 0

theorem hiddenA_eq_hiddenT {K H : ℕ} (X : Fin N → Fin K → EReal) (W1 : Fin K → Fin H → EReal) (b1 : Fin H → EReal)
    (hX : ∀ u k, IsReal (X u k)) (hW : ∀ k c, IsReal (W1 k c)) (hdv : ∀ u, IsReal (dv u))
    (hgd : ∀ e v, hit e v → gd e = v) :
    hiddenA dv gs hit X W1 b1 = hiddenT dv gs gd hit X W1 b1 := by
  funext u k
  unfold hiddenA hiddenT
  rw [layerA_eq_layerT dv gs gd hit X W1 b1 hX hW hdv hgd]

theorem isReal_hiddenA {K H : ℕ} (X : Fin N → Fin K → EReal) (W1 : Fin K → Fin H → EReal) (b1 : Fin H → EReal)
    (hX : ∀ u k, IsReal (X u k)) (hW : ∀ k c, IsReal (W1 k c)) (hb : ∀ c, IsReal (b1 c)) (hdv : ∀ u, IsReal (dv u))
    (u : Fin N) (k : Fin H) : IsReal (hiddenA dv gs hit X W1 b1 u k) :=
  IsReal.max (isReal_layerA dv gs hit X W1 b1 hX hW hb hdv u k) IsReal.zero

/-- THE ENCODER'S TWO RESULTS AGREE in the two orders: the second layer on the hidden features, with either pair of
    second-layer weights. -/
theorem encoder_eq {K H D : ℕ} (X : Fin N → Fin K → EReal) (W1 : Fin K → Fin H → EReal) (b1 : Fin H → EReal)
    (W2 : Fin H → Fin D → EReal) (b2 : Fin D → EReal)
    (hX : ∀ u k, IsReal (X u k)) (hW1 : ∀ k c, IsReal (W1 k c)) (hb1 : ∀ c, IsReal (b1 c)) (hW2 : ∀ k c, IsReal (W2 k c))
    (hdv : ∀ u, IsReal (dv u)) (hgd : ∀ e v, hit e v → gd e = v) (v : Fin N) (c : Fin D) :
    layerA dv gs hit (hiddenA dv gs hit X W1 b1) W2 b2 v c = layerT dv gs gd hit (hiddenT dv gs gd hit X W1 b1) W2 b2 v c := by
  rw [← hiddenA_eq_hiddenT dv gs gd hit X W1 b1 hX hW1 hdv hgd]
  exact layerA_eq_layerT dv gs gd hit _ W2 b2 (isReal_hiddenA dv gs hit X W1 b1 hX hW1 hb1 hdv) hW2 hdv hgd v c

end

end Cert.GcnSpec

end
-- ==== Proof.RefValue.lean ====
/-
  THE REFERENCE PROGRAM'S TWO RESULTS AS INDEX-BY-INDEX FORMULAS.

  The reference computes a two-layer graph-convolution encoder in the order transform, then aggregate. Its graph data, read
  off the edge array: `dv u` is node `u`'s normaliser; edge `e` has the source row `gs e` and the target row `gd e` that the
  gathers read (start index read signed, a negative one shifted by the node count, then clamped into the node range), and
  lands on row `v` of a scatter (`hit e v`) when its raw target index IS `v`. An edge that lands on `v` has target row
  `v` (`gd_of_hit`): a nonnegative index is not shifted, and an index that is a row is not clamped. The hidden features are
  the first layer clipped below at zero (`hidden_apply`); the first result is the second layer with one pair of weights
  (`mu_apply`), the second the second layer with the other pair clipped above at the constant ten (`ls_apply`).
-/
import proofs.«176023_j65481071395096_2_alg».proof.Proof.RefReadP
import proofs.«176023_j65481071395096_2_alg».proof.Proof.LibRowGatherScatter
import proofs.«176023_j65481071395096_2_alg».proof.Proof.GcnSpec

open scoped BigOperators

noncomputable section

namespace Cert.ReferenceIdeal.RefValue

open Cert.ReferenceIdeal Cert.ReferenceIdeal.Gen Idealize.ShloMosaic Idealize.ShloMosaic.ValueIdx

/-! ## The graph data -/

/-- Node `u`'s normaliser. -/
def dv (a1 : IVec S2x1000000 32) (u : Fin 100000) : EReal := ReadP.val_main_v14 (F := Ideal) a1 (ix1 u)

/-- Edge `e`'s source row, as the gathers read it off the normalised source index column. -/
def gs (a1 : IVec S2x1000000 32) (e : Fin 1100000) : Fin 100000 :=
  RowOps.pickRow (N := 100000) (by decide) (ReadP.val_main_v20 (F := Ideal) a1) e

/-- Edge `e`'s target row, as the gather of the normaliser reads it off the normalised target index column. -/
def gd (a1 : IVec S2x1000000 32) (e : Fin 1100000) : Fin 100000 :=
  RowOps.pickRow (N := 100000) (by decide) (ReadP.val_main_v27 (F := Ideal) a1) e

/-- Edge `e` lands on row `v` of a scatter: its raw target index is `v`. -/
def hit (a1 : IVec S2x1000000 32) (e : Fin 1100000) (v : Fin 100000) : Prop :=
  RowOps.lands (ReadP.val_main_v9 (F := Ideal) a1) e v

instance (a1 : IVec S2x1000000 32) (e : Fin 1100000) (v : Fin 100000) : Decidable (hit a1 e v) :=
  inferInstanceAs (Decidable (RowOps.lands (ReadP.val_main_v9 (F := Ideal) a1) e v))

/-! ## The index columns the program builds several times are one term -/

theorem v36_eq (a1 : IVec S2x1000000 32) : ReadP.val_main_v36 (F := Ideal) a1 = ReadP.val_main_v20 (F := Ideal) a1 := rfl
theorem v54_eq (a1 : IVec S2x1000000 32) : ReadP.val_main_v54 (F := Ideal) a1 = ReadP.val_main_v20 (F := Ideal) a1 := rfl
theorem v71_eq (a1 : IVec S2x1000000 32) : ReadP.val_main_v71 (F := Ideal) a1 = ReadP.val_main_v20 (F := Ideal) a1 := rfl
theorem v42_eq (a1 : IVec S2x1000000 32) : ReadP.val_main_v42 (F := Ideal) a1 = ReadP.val_main_v9 (F := Ideal) a1 := rfl
theorem v60_eq (a1 : IVec S2x1000000 32) : ReadP.val_main_v60 (F := Ideal) a1 = ReadP.val_main_v9 (F := Ideal) a1 := rfl
theorem v77_eq (a1 : IVec S2x1000000 32) : ReadP.val_main_v77 (F := Ideal) a1 = ReadP.val_main_v9 (F := Ideal) a1 := rfl

/-! ## An edge that lands on a row has that target row -/

/-- A signed comparison "below zero" of a word whose signed value is nonnegative is the bit 0. -/
theorem cmpi_slt_zero_of_nonneg (x : BitVec 32) (h : 0 ≤ x.toInt) : IntOp.cmpi .slt x 0#32 = 0#1 := by
  have hs : x.slt 0#32 = false := by
    rw [BitVec.slt]
    simp only [BitVec.toInt_zero, decide_eq_false_iff_not, not_lt]
    exact h
  show BitVec.ofBool (x.slt 0#32) = 0#1
  rw [hs]; rfl

/-- The target column the gathers read keeps a raw target index that is a row: a nonnegative index is not shifted. -/
theorem gd_of_hit (a1 : IVec S2x1000000 32) (e : Fin 1100000) (v : Fin 100000) (h : hit a1 e v) : gd a1 e = v := by
  unfold gd
  refine RowOps.pickRow_of_lands_of_eq (by decide) (ReadP.val_main_v9 (F := Ideal) a1) (ReadP.val_main_v27 (F := Ideal) a1) e v h ?_
  have h9 : ReadP.val_main_v9 (F := Ideal) a1 (ix2 e (0 : Fin 1)) = ReadP.val_main_v6 (F := Ideal) a1 (ix1 e) := by
    rw [ReadP.val_main_v9_apply]
    congr 1
    funext a; match a with | ⟨0, _⟩ => rfl
  have hnn : 0 ≤ (ReadP.val_main_v6 (F := Ideal) a1 (ix1 e)).toInt := by
    have h' : (ReadP.val_main_v9 (F := Ideal) a1 (ix2 e (0 : Fin 1))).toInt = (v.val : Int) := h
    rw [h9] at h'
    rw [h']; exact Int.natCast_nonneg _
  have hj : ReadP.idx_main_v27 (ix2 e (0 : Fin 1) : S1100000x1.Idx) = ix1 e := by
    funext a; match a with | ⟨0, _⟩ => rfl
  rw [h9, ReadP.val_main_v27_apply, hj, ReadP.val_main_v26_apply, ReadP.val_main_v23_apply, ReadP.val_main_v22_apply,
    ReadP.val_main_c_4_apply, cmpi_slt_zero_of_nonneg _ hnn, select_zero]

/-! ## The stages read at coordinates -/

/-- The zero splat's entry is the extended real 0. -/
theorem ofBits_zero : FloatOps.ofBits (F := Ideal) .f32 0x00000000#32 = (0 : EReal) := by
  rw [Ideal.ofBits_def, Ideal.ofBits_zero_f32]

/-- The edge norm: the normaliser at the source row times the normaliser at the target row. -/
theorem norm_apply (a1 : IVec S2x1000000 32) (e : Fin 1100000) :
    ReadP.val_main_v29 (F := Ideal) a1 (ix1 e) = dv a1 (gs a1 e) * dv a1 (gd a1 e) := by
  rw [ReadP.val_main_v29_apply, Ideal.mulf_def]
  unfold ReadP.val_main_v21 ReadP.val_main_v28
  rw [show gather_S100000_S1100000x1_S1100000_n_0_n_n_0_1_1 = RowOps.gatherVecDims 100000 1100000 _ from rfl,
    RowOps.gather_vec_apply (N := 100000) (by decide), RowOps.gather_vec_apply (N := 100000) (by decide)]
  rfl

/-- The edge norm broadcast along 128 columns … -/
theorem v39_row (a1 : IVec S2x1000000 32) (e : Fin 1100000) (j : Fin 128) :
    ReadP.val_main_v39 (F := Ideal) a1 (ix2 e j) = ReadP.val_main_v29 (F := Ideal) a1 (ix1 e) := by
  rw [ReadP.val_main_v39_apply, ReadP.val_main_v38_apply]
  congr 1
  funext a; match a with | ⟨0, _⟩ => rfl

/-- … and along 64 columns. -/
theorem v57_row (a1 : IVec S2x1000000 32) (e : Fin 1100000) (c : Fin 64) :
    ReadP.val_main_v57 (F := Ideal) a1 (ix2 e c) = ReadP.val_main_v29 (F := Ideal) a1 (ix1 e) := by
  rw [ReadP.val_main_v57_apply, ReadP.val_main_v56_apply]
  congr 1
  funext a; match a with | ⟨0, _⟩ => rfl

/-- The first transform: the input features times the first weights. -/
theorem v30_row (a0 : FVec Ideal S100000x64 .f32) (a2 : FVec Ideal S64x128 .f32) (u : Fin 100000) (j : Fin 128) :
    ReadP.val_main_v30 (F := Ideal) a0 a2 (ix2 u j) = ∑ k : Fin 64, a0 (ix2 u k) * a2 (ix2 k j) := by
  rw [ReadP.val_main_v30_apply]
  refine Finset.sum_congr rfl fun k _ => ?_
  have hl : ReadP.lidx_main_v30 (ix2 u j : S100000x128.Idx) k = ix2 u k := by
    funext a; match a with | ⟨0, _⟩ => rfl | ⟨1, _⟩ => rfl
  have hr : ReadP.ridx_main_v30 (ix2 u j : S100000x128.Idx) k = ix2 k j := by
    funext a; match a with | ⟨0, _⟩ => rfl | ⟨1, _⟩ => rfl
  rw [hl, hr]

/-- THE HIDDEN FEATURES: the first layer, transform then aggregate, clipped below at zero. -/
theorem hidden_apply (a0 : FVec Ideal S100000x64 .f32) (a1 : IVec S2x1000000 32) (a2 : FVec Ideal S64x128 .f32)
    (a3 : FVec Ideal S128 .f32) (u : Fin 100000) (j : Fin 128) :
    ReadP.val_main_v47 (F := Ideal) a0 a1 a2 a3 (ix2 u j) =
      Cert.GcnSpec.hiddenT (dv a1) (gs a1) (gd a1) (hit a1) (fun u k => a0 (ix2 u k)) (fun k j => a2 (ix2 k j))
        (fun j => a3 (ix1 j)) u j := by
  unfold Cert.GcnSpec.hiddenT Cert.GcnSpec.layerT
  rw [ReadP.val_main_v47_apply, ReadP.val_main_v46_apply, Ideal.maximumf_def, Ideal.addf_def,
    ReadP.val_main_call1_v0_apply, ReadP.val_main_call1_cst_apply, ofBits_zero]
  have hb : ReadP.val_main_v45 (F := Ideal) a3 (ix2 u j) = a3 (ix1 j) := by
    rw [ReadP.val_main_v45_apply, ReadP.val_main_v44_apply]
    congr 1
    funext a; match a with | ⟨0, _⟩ => rfl
  rw [hb]
  unfold ReadP.val_main_v43
  rw [show scatter_S100000x128_S1100000x1_S1100000x128_1_0_0_1 = RowOps.scatterRowsDims 100000 1100000 128 _ from rfl,
    RowOps.scatterAdd_rows_apply, ReadP.val_main_v41_apply, ReadP.val_main_cst_8_apply, ofBits_zero, zero_add]
  have hsum : ∑ e ∈ Finset.univ.filter (fun e : Fin 1100000 => RowOps.lands (ReadP.val_main_v42 (F := Ideal) a1) e u),
        ReadP.val_main_v40 (F := Ideal) a0 a1 a2 (ix2 e j)
      = ∑ e ∈ Finset.univ.filter (fun e : Fin 1100000 => hit a1 e u),
        (∑ k : Fin 64, a0 (ix2 (gs a1 e) k) * a2 (ix2 k j)) * (dv a1 (gs a1 e) * dv a1 (gd a1 e)) := by
    refine Finset.sum_congr rfl fun e _ => ?_
    rw [ReadP.val_main_v40_apply, Ideal.mulf_def, v39_row, norm_apply]
    unfold ReadP.val_main_v37
    rw [show gather_S100000x128_S1100000x1_S1100000x128_1_0_n_n_0_1_1128 = RowOps.gatherRowsDims 100000 1100000 128 _ from rfl,
      RowOps.gather_rows_apply (N := 100000) (by decide), v36_eq, v30_row]
    rfl
  rw [hsum]

/-- The second transform: the hidden features times the second weights. -/
theorem v48_row (a0 : FVec Ideal S100000x64 .f32) (a1 : IVec S2x1000000 32) (a2 : FVec Ideal S64x128 .f32)
    (a3 : FVec Ideal S128 .f32) (a4 : FVec Ideal S128x64 .f32) (u : Fin 100000) (c : Fin 64) :
    ReadP.val_main_v48 (F := Ideal) a0 a1 a2 a3 a4 (ix2 u c) =
      ∑ k : Fin 128, Cert.GcnSpec.hiddenT (dv a1) (gs a1) (gd a1) (hit a1) (fun u k => a0 (ix2 u k)) (fun k j => a2 (ix2 k j))
        (fun j => a3 (ix1 j)) u k * a4 (ix2 k c) := by
  rw [ReadP.val_main_v48_apply]
  refine Finset.sum_congr rfl fun k _ => ?_
  have hl : ReadP.lidx_main_v48 (ix2 u c : S100000x64.Idx) k = ix2 u k := by
    funext a; match a with | ⟨0, _⟩ => rfl | ⟨1, _⟩ => rfl
  have hr : ReadP.ridx_main_v48 (ix2 u c : S100000x64.Idx) k = ix2 k c := by
    funext a; match a with | ⟨0, _⟩ => rfl | ⟨1, _⟩ => rfl
  rw [hl, hr, hidden_apply]

/-! ## The two results -/

/-- THE FIRST RESULT: the second layer, transform then aggregate, on the hidden features. -/
theorem mu_apply (a0 : FVec Ideal S100000x64 .f32) (a1 : IVec S2x1000000 32) (a2 : FVec Ideal S64x128 .f32)
    (a3 : FVec Ideal S128 .f32) (a4 : FVec Ideal S128x64 .f32) (a5 : FVec Ideal S64 .f32) (v : Fin 100000) (c : Fin 64) :
    ReadP.val_main_v64 (F := Ideal) a0 a1 a2 a3 a4 a5 (ix2 v c) =
      Cert.GcnSpec.layerT (dv a1) (gs a1) (gd a1) (hit a1)
        (Cert.GcnSpec.hiddenT (dv a1) (gs a1) (gd a1) (hit a1) (fun u k => a0 (ix2 u k)) (fun j k => a2 (ix2 j k))
          (fun k => a3 (ix1 k)))
        (fun k c => a4 (ix2 k c)) (fun c => a5 (ix1 c)) v c := by
  unfold Cert.GcnSpec.layerT
  rw [ReadP.val_main_v64_apply, Ideal.addf_def]
  have hb : ReadP.val_main_v63 (F := Ideal) a5 (ix2 v c) = a5 (ix1 c) := by
    rw [ReadP.val_main_v63_apply, ReadP.val_main_v62_apply]
    congr 1
    funext a; match a with | ⟨0, _⟩ => rfl
  rw [hb]
  unfold ReadP.val_main_v61
  rw [show scatter_S100000x64_S1100000x1_S1100000x64_1_0_0_1 = RowOps.scatterRowsDims 100000 1100000 64 _ from rfl,
    RowOps.scatterAdd_rows_apply, ReadP.val_main_v59_apply, ReadP.val_main_cst_11_apply, ofBits_zero, zero_add]
  have hsum : ∑ e ∈ Finset.univ.filter (fun e : Fin 1100000 => RowOps.lands (ReadP.val_main_v60 (F := Ideal) a1) e v),
        ReadP.val_main_v58 (F := Ideal) a0 a1 a2 a3 a4 (ix2 e c)
      = ∑ e ∈ Finset.univ.filter (fun e : Fin 1100000 => hit a1 e v),
        (∑ k : Fin 128, Cert.GcnSpec.hiddenT (dv a1) (gs a1) (gd a1) (hit a1) (fun u k => a0 (ix2 u k))
          (fun j k => a2 (ix2 j k)) (fun k => a3 (ix1 k)) (gs a1 e) k * a4 (ix2 k c)) * (dv a1 (gs a1 e) * dv a1 (gd a1 e)) := by
    refine Finset.sum_congr rfl fun e _ => ?_
    rw [ReadP.val_main_v58_apply, Ideal.mulf_def, v57_row, norm_apply]
    unfold ReadP.val_main_v55
    rw [show gather_S100000x64_S1100000x1_S1100000x64_1_0_n_n_0_1_164 = RowOps.gatherRowsDims 100000 1100000 64 _ from rfl,
      RowOps.gather_rows_apply (N := 100000) (by decide), v54_eq, v48_row]
    rfl
  rw [hsum]

/-- The second result's unclipped stage is the first result's stage at the other pair of second-layer weights. -/
theorem v81_eq (a0 : FVec Ideal S100000x64 .f32) (a1 : IVec S2x1000000 32) (a2 : FVec Ideal S64x128 .f32)
    (a3 : FVec Ideal S128 .f32) (a6 : FVec Ideal S128x64 .f32) (a7 : FVec Ideal S64 .f32) :
    ReadP.val_main_v81 (F := Ideal) a0 a1 a2 a3 a6 a7 = ReadP.val_main_v64 (F := Ideal) a0 a1 a2 a3 a6 a7 := rfl

/-- THE SECOND RESULT: the second layer with the other pair of weights, clipped above at the constant ten. -/
theorem ls_apply (a0 : FVec Ideal S100000x64 .f32) (a1 : IVec S2x1000000 32) (a2 : FVec Ideal S64x128 .f32)
    (a3 : FVec Ideal S128 .f32) (a6 : FVec Ideal S128x64 .f32) (a7 : FVec Ideal S64 .f32) (v : Fin 100000) (c : Fin 64) :
    ReadP.val_main_v83 (F := Ideal) a0 a1 a2 a3 a6 a7 (ix2 v c) =
      min (Cert.GcnSpec.layerT (dv a1) (gs a1) (gd a1) (hit a1)
        (Cert.GcnSpec.hiddenT (dv a1) (gs a1) (gd a1) (hit a1) (fun u k => a0 (ix2 u k)) (fun j k => a2 (ix2 j k))
          (fun k => a3 (ix1 k)))
        (fun k c => a6 (ix2 k c)) (fun c => a7 (ix1 c)) v c) (Ideal.ofBits .f32 0x41200000#32) := by
  rw [ReadP.val_main_v83_apply, Ideal.minimumf_def, v81_eq, mu_apply, ReadP.val_main_v82_apply, ReadP.val_main_cst_15_apply,
    Ideal.ofBits_def]

end Cert.ReferenceIdeal.RefValue

end
-- ==== Proof.KStretchRead.lean ====
/-
  THE KERNEL PROGRAM'S NORMALISED AGGREGATE READ AT AN ENTRY.

  Before each matrix kernel the host aggregates a feature matrix over the graph's edges: it scales every row by the node's
  normaliser, gathers the scaled source rows of the edges, adds each gathered row into the edge's target row, and scales every
  row of the sum by the normaliser again. With `dvOf dcol u` the normaliser of node `u` read off the normaliser column, `gsOf src e`
  the source row the gather reads for edge `e` (start index read signed, a negative one shifted by the node count, then
  clamped into the node range) and `hitOf dst e v` saying that edge `e`'s raw target index IS `v`, entry `(v, k)` of the
  aggregate is
      (Σ_{e lands on v} X (gs e) k · dv (gs e)) · dv v,
  at width 64 (`agg64_apply`) and at width 128 (`agg128_apply`). On the reference program's edge arrays and normaliser these
  graph data are the reference's own (`normCol_ref`, `col_ref`, `dcol_ref`, `gsOf_ref`, `hitOf_ref`, `agg_ref`): the two programs
  state the same operations.
-/
import proofs.«176023_j65481071395096_2_alg».proof.Proof.RefValue
import proofs.«176023_j65481071395096_2_alg».proof.Proof.KStretch

open scoped BigOperators

noncomputable section

namespace Cert.KernelIdeal.KStretchRead

open Cert.KernelIdeal Cert.KernelIdeal.Gen Idealize.ShloMosaic Idealize.ShloMosaic.ValueIdx

/-! ## The graph data, as functions of the buffers -/

/-- Node `u`'s normaliser, read off the normaliser column. -/
def dvOf (dcol : FVec Ideal S100000x1 .f32) (u : Fin 100000) : EReal := dcol (ix2 u (0 : Fin 1))

/-- Edge `e`'s source row, as the gather reads it off the normalised source index column. -/
def gsOf (src : IVec S1100000 32) (e : Fin 1100000) : Fin 100000 :=
  RowOps.pickRow (N := 100000) (by decide) (KStretch.normCol src) e

/-- Edge `e` lands on row `v` of the scatter: its raw target index is `v`. -/
def hitOf (dst : IVec S1100000 32) (e : Fin 1100000) (v : Fin 100000) : Prop :=
  RowOps.lands (KStretch.col dst) e v

instance (dst : IVec S1100000 32) (e : Fin 1100000) (v : Fin 100000) : Decidable (hitOf dst e v) :=
  inferInstanceAs (Decidable (RowOps.lands (KStretch.col dst) e v))

/-! ## The broadcasts read at an entry -/

/-- The normaliser column broadcast along 64 columns, at `(u, j)`, is the column's entry `(u, 0)` … -/
theorem dcolB64_apply (dcol : FVec Ideal S100000x1 .f32) (u : Fin 100000) (j : Fin 64) :
    broadcastInDim S100000x64 ![0, 1] bcast_S100000x1_S100000x64_0_1 dcol (ix2 u j) = dcol (ix2 u (0 : Fin 1)) :=
  broadcastInDim_apply _ bcast_S100000x1_S100000x64_0_1 dcol (ix2 u j) (ix2 u (0 : Fin 1)) (fun a => match a with
    | ⟨0, _⟩ => by show u.val = if (100000 : Nat) = 1 then 0 else u.val; rw [if_neg (by decide)]
    | ⟨1, _⟩ => by show 0 = if (1 : Nat) = 1 then 0 else j.val; rw [if_pos rfl])

/-- … and the same along 128 columns. -/
theorem dcolB128_apply (dcol : FVec Ideal S100000x1 .f32) (u : Fin 100000) (k : Fin 128) :
    broadcastInDim S100000x128 ![0, 1] bcast_S100000x1_S100000x128_0_1 dcol (ix2 u k) = dcol (ix2 u (0 : Fin 1)) :=
  broadcastInDim_apply _ bcast_S100000x1_S100000x128_0_1 dcol (ix2 u k) (ix2 u (0 : Fin 1)) (fun a => match a with
    | ⟨0, _⟩ => by show u.val = if (100000 : Nat) = 1 then 0 else u.val; rw [if_neg (by decide)]
    | ⟨1, _⟩ => by show 0 = if (1 : Nat) = 1 then 0 else k.val; rw [if_pos rfl])

/-- The zero operand of the scatter at width 64: every entry is the extended real 0 … -/
theorem zero64_apply (i : S100000x64.Idx) :
    broadcastInDim S100000x64 ![] bcast_S_S100000x64 (constant (F := Ideal) S_ .f32 0x00000000#32) i = (0 : EReal) := by
  rw [broadcastInDim_apply _ bcast_S_S100000x64 (constant (F := Ideal) S_ .f32 0x00000000#32) i (fun a => a.elim0) (fun a => a.elim0),
    constant_apply, Ideal.ofBits_zero_f32]

/-- … and at width 128. -/
theorem zero128_apply (i : S100000x128.Idx) :
    broadcastInDim S100000x128 ![] bcast_S_S100000x128 (constant (F := Ideal) S_ .f32 0x00000000#32) i = (0 : EReal) := by
  rw [broadcastInDim_apply _ bcast_S_S100000x128 (constant (F := Ideal) S_ .f32 0x00000000#32) i (fun a => a.elim0) (fun a => a.elim0),
    constant_apply, Ideal.ofBits_zero_f32]

/-! ## The normalised aggregate read at an entry -/

/-- THE AGGREGATE AT WIDTH 64, at `(v, j)`: the sum over the edges that land on `v` of the source row's entry times the
    source's normaliser, times `v`'s normaliser. -/
theorem agg64_apply (x : FVec Ideal S100000x64 .f32) (dcol : FVec Ideal S100000x1 .f32) (src dst : IVec S1100000 32)
    (v : Fin 100000) (j : Fin 64) :
    KStretch.agg64 (F := Ideal) x dcol src dst (ix2 v j) =
      Cert.GcnSpec.agg (dvOf dcol) (gsOf src) (hitOf dst) (fun u k => x (ix2 u k)) v j := by
  unfold KStretch.agg64 Cert.GcnSpec.agg
  rw [mulf_apply, dcolB64_apply,
    show scatter_S100000x64_S1100000x1_S1100000x64_1_0_0_1 = RowOps.scatterRowsDims 100000 1100000 64 _ from rfl,
    RowOps.scatterAdd_rows_apply, zero64_apply, zero_add]
  have hsum : ∑ e ∈ Finset.univ.filter (fun e : Fin 1100000 => RowOps.lands (KStretch.col dst) e v),
        Host.gather gather_S100000x64_S1100000x1_S1100000x64_1_0_n_n_0_1_164
          (mulf x (broadcastInDim S100000x64 ![0, 1] bcast_S100000x1_S100000x64_0_1 dcol)) (KStretch.normCol src) (ix2 e j)
      = ∑ e ∈ Finset.univ.filter (fun e : Fin 1100000 => hitOf dst e v), x (ix2 (gsOf src e) j) * dvOf dcol (gsOf src e) := by
    refine Finset.sum_congr rfl fun e _ => ?_
    rw [show gather_S100000x64_S1100000x1_S1100000x64_1_0_n_n_0_1_164 = RowOps.gatherRowsDims 100000 1100000 64 _ from rfl,
      RowOps.gather_rows_apply (N := 100000) (by decide), mulf_apply, dcolB64_apply]
    rfl
  rw [hsum]
  rfl

/-- THE AGGREGATE AT WIDTH 128, at `(v, k)`: the same expression on the hidden features. -/
theorem agg128_apply (h : FVec Ideal S100000x128 .f32) (dcol : FVec Ideal S100000x1 .f32) (src dst : IVec S1100000 32)
    (v : Fin 100000) (k : Fin 128) :
    KStretch.agg128 (F := Ideal) h dcol src dst (ix2 v k) =
      Cert.GcnSpec.agg (dvOf dcol) (gsOf src) (hitOf dst) (fun u k => h (ix2 u k)) v k := by
  unfold KStretch.agg128 Cert.GcnSpec.agg
  rw [mulf_apply, dcolB128_apply,
    show scatter_S100000x128_S1100000x1_S1100000x128_1_0_0_1 = RowOps.scatterRowsDims 100000 1100000 128 _ from rfl,
    RowOps.scatterAdd_rows_apply, zero128_apply, zero_add]
  have hsum : ∑ e ∈ Finset.univ.filter (fun e : Fin 1100000 => RowOps.lands (KStretch.col dst) e v),
        Host.gather gather_S100000x128_S1100000x1_S1100000x128_1_0_n_n_0_1_1128
          (mulf h (broadcastInDim S100000x128 ![0, 1] bcast_S100000x1_S100000x128_0_1 dcol)) (KStretch.normCol src) (ix2 e k)
      = ∑ e ∈ Finset.univ.filter (fun e : Fin 1100000 => hitOf dst e v), h (ix2 (gsOf src e) k) * dvOf dcol (gsOf src e) := by
    refine Finset.sum_congr rfl fun e _ => ?_
    rw [show gather_S100000x128_S1100000x1_S1100000x128_1_0_n_n_0_1_1128 = RowOps.gatherRowsDims 100000 1100000 128 _ from rfl,
      RowOps.gather_rows_apply (N := 100000) (by decide), mulf_apply, dcolB128_apply]
    rfl
  rw [hsum]
  rfl

/-! ## On the reference program's arrays the graph data are the reference's -/

/-- The kernel program's source index column, on the reference's source node numbers, is the reference's. -/
theorem normCol_ref (a1 : IVec S2x1000000 32) :
    KStretch.normCol (Cert.ReferenceIdeal.ReadP.val_main_v3 (F := Ideal) a1) = Cert.ReferenceIdeal.ReadP.val_main_v20 (F := Ideal) a1 := rfl

/-- The kernel program's target index column, on the reference's target node numbers, is the reference's. -/
theorem col_ref (a1 : IVec S2x1000000 32) :
    KStretch.col (Cert.ReferenceIdeal.ReadP.val_main_v6 (F := Ideal) a1) = Cert.ReferenceIdeal.ReadP.val_main_v9 (F := Ideal) a1 := rfl

/-- The normaliser column built from the reference's normaliser vector reads, at `(u, 0)`, the vector at `u`. -/
theorem dcol_ref (a1 : IVec S2x1000000 32) (u : Fin 100000) :
    dvOf (KStretch.dcolOf (F := Ideal) (Cert.ReferenceIdeal.ReadP.val_main_v14 (F := Ideal) a1)) u = Cert.ReferenceIdeal.RefValue.dv a1 u := by
  unfold dvOf KStretch.dcolOf Cert.ReferenceIdeal.RefValue.dv
  exact shapeCast_apply _ shapeCasts_S100000_S100000x1 (ix2 u (0 : Fin 1)) (ix1 u) (by
    rw [Shape.rowMajor_val_one, Shape.rowMajor_val_two]; show u.val = u.val * 1 + 0; omega)

/-- The source rows are the reference's … -/
theorem gsOf_ref (a1 : IVec S2x1000000 32) :
    gsOf (Cert.ReferenceIdeal.ReadP.val_main_v3 (F := Ideal) a1) = Cert.ReferenceIdeal.RefValue.gs a1 := rfl

/-- … and an edge lands on a row exactly when it does in the reference. -/
theorem hitOf_ref (a1 : IVec S2x1000000 32) :
    hitOf (Cert.ReferenceIdeal.ReadP.val_main_v6 (F := Ideal) a1) = Cert.ReferenceIdeal.RefValue.hit a1 := rfl

/-- Consequently the aggregate over the kernel program's graph data, on the reference's arrays, is the aggregate over the
    reference's graph data. -/
theorem agg_ref {K : ℕ} (a1 : IVec S2x1000000 32) (X : Fin 100000 → Fin K → EReal) (v : Fin 100000) (k : Fin K) :
    Cert.GcnSpec.agg (dvOf (KStretch.dcolOf (F := Ideal) (Cert.ReferenceIdeal.ReadP.val_main_v14 (F := Ideal) a1)))
        (gsOf (Cert.ReferenceIdeal.ReadP.val_main_v3 (F := Ideal) a1)) (hitOf (Cert.ReferenceIdeal.ReadP.val_main_v6 (F := Ideal) a1)) X v k
      = Cert.GcnSpec.agg (Cert.ReferenceIdeal.RefValue.dv a1) (Cert.ReferenceIdeal.RefValue.gs a1)
        (Cert.ReferenceIdeal.RefValue.hit a1) X v k := by
  unfold Cert.GcnSpec.agg
  rw [dcol_ref]
  refine congrArg (· * Cert.ReferenceIdeal.RefValue.dv a1 v) ?_
  refine Finset.sum_congr rfl fun e _ => ?_
  rw [dcol_ref]
  rfl

/-- THE AGGREGATE AT WIDTH 64 ON THE REFERENCE'S ARRAYS, over the reference's graph data. -/
theorem agg64_ref (x : FVec Ideal S100000x64 .f32) (a1 : IVec S2x1000000 32) (v : Fin 100000) (j : Fin 64) :
    KStretch.agg64 (F := Ideal) x (KStretch.dcolOf (Cert.ReferenceIdeal.ReadP.val_main_v14 (F := Ideal) a1))
        (Cert.ReferenceIdeal.ReadP.val_main_v3 (F := Ideal) a1) (Cert.ReferenceIdeal.ReadP.val_main_v6 (F := Ideal) a1) (ix2 v j)
      = Cert.GcnSpec.agg (Cert.ReferenceIdeal.RefValue.dv a1) (Cert.ReferenceIdeal.RefValue.gs a1)
        (Cert.ReferenceIdeal.RefValue.hit a1) (fun u k => x (ix2 u k)) v j :=
  (agg64_apply x _ _ _ v j).trans (agg_ref a1 (fun u k => x (ix2 u k)) v j)

/-- THE AGGREGATE AT WIDTH 128 ON THE REFERENCE'S ARRAYS, over the reference's graph data. -/
theorem agg128_ref (h : FVec Ideal S100000x128 .f32) (a1 : IVec S2x1000000 32) (v : Fin 100000) (k : Fin 128) :
    KStretch.agg128 (F := Ideal) h (KStretch.dcolOf (Cert.ReferenceIdeal.ReadP.val_main_v14 (F := Ideal) a1))
        (Cert.ReferenceIdeal.ReadP.val_main_v3 (F := Ideal) a1) (Cert.ReferenceIdeal.ReadP.val_main_v6 (F := Ideal) a1) (ix2 v k)
      = Cert.GcnSpec.agg (Cert.ReferenceIdeal.RefValue.dv a1) (Cert.ReferenceIdeal.RefValue.gs a1)
        (Cert.ReferenceIdeal.RefValue.hit a1) (fun u k => h (ix2 u k)) v k :=
  (agg128_apply h _ _ _ v k).trans (agg_ref a1 (fun u k => h (ix2 u k)) v k)

end Cert.KernelIdeal.KStretchRead

end
-- ==== Proof.KOutRead.lean ====
/-
  The second matrix kernel's fused output, cut into its two halves, read at an entry.

  The kernel's output at row v and column q is Σ_k g(v, k) · w(k, q) + b(0, q), capped at a constant in the columns
  q ≥ 64. Its weight matrix w is two [128, 64] matrices joined along the columns (column q < 64 is column q of the first,
  column 64 + c is column c of the second), and its bias row b is two vectors of length 64 joined end to end and read as
  a row. The first result is the columns 0 … 63 of the output, the second the columns 64 … 127. So entry (v, c) of the
  first result is the linear map with the first matrix and bias, and entry (v, c) of the second is the capped linear map
  with the second matrix and bias. A vector of length 128 read as a [1, 128] row has, at (0, q), its entry q.
-/
import proofs.«176023_j65481071395096_2_alg».proof.Proof.KStretch
import proofs.«176023_j65481071395096_2_alg».proof.Proof.KBlocks
import Idealize.ShloMosaic.Lib.Pipeline.Value
import Idealize.ShloMosaic.Lib.ValueIdx

noncomputable section

open scoped BigOperators

namespace Cert.KernelIdeal.KOutRead

open Cert.KernelIdeal Cert.KernelIdeal.Gen Idealize.ShloMosaic Idealize.ShloMosaic.ValueIdx

/-! ## The joined weight matrix and the joined bias row, read at an entry -/

/-- A column below 64 of the two matrices joined along the columns is that column of the first. -/
theorem wcat_lo (a4 a6 : FVec Ideal S128x64 .f32) (k q : Fin 128) (c : Fin 64) (hq : q.val = c.val) :
    KStretch.wcat a4 a6 (ix2 k q) = a4 (ix2 k c) := by
  unfold KStretch.wcat
  refine concatenate_pair_apply_left _ a4 a6 concatenates_S128x64_S128x64_S128x128_d1 (ix2 k q) rfl (ix2 k c) ?_
  intro b
  match b with
  | ⟨0, _⟩ => rfl
  | ⟨1, _⟩ => exact hq.symm

/-- Column 64 + c of the two matrices joined along the columns is column c of the second. -/
theorem wcat_hi (a4 a6 : FVec Ideal S128x64 .f32) (k q : Fin 128) (c : Fin 64) (hq : q.val = c.val + 64) :
    KStretch.wcat a4 a6 (ix2 k q) = a6 (ix2 k c) := by
  unfold KStretch.wcat
  refine concatenate_pair_apply_right _ a4 a6 concatenates_S128x64_S128x64_S128x128_d1 (ix2 k q) rfl rfl (ix2 k c) ?_ ?_
  · intro b hb
    match b with
    | ⟨0, _⟩ => rfl
    | ⟨1, _⟩ => exact absurd rfl hb
  · show c.val + 64 = q.val
    omega

/-- The joined bias vector as a row, at a column: the joined vector at that position. -/
theorem bcat_row (a5 a7 : FVec Ideal S64 .f32) (q : Fin 128) :
    KStretch.bcat a5 a7 (ix2 (0 : Fin 1) q)
      = concatenate S128 0 [⟨S64, a5⟩, ⟨S64, a7⟩] concatenates_S64_S64_S128_d0 (ix1 q) := by
  unfold KStretch.bcat
  refine shapeCast_apply _ shapeCasts_S128_S1x128 (ix2 (0 : Fin 1) q) (ix1 q) ?_
  rewrite [Shape.rowMajor_val_two, Shape.rowMajor_val_one]
  show q.val = 0 * 128 + q.val
  omega

/-- A position below 64 of the two bias vectors joined end to end is that position of the first. -/
theorem bcat_lo (a5 a7 : FVec Ideal S64 .f32) (q : Fin 128) (c : Fin 64) (hq : q.val = c.val) :
    KStretch.bcat a5 a7 (ix2 (0 : Fin 1) q) = a5 (ix1 c) := by
  rw [bcat_row]
  refine concatenate_pair_apply_left _ a5 a7 concatenates_S64_S64_S128_d0 (ix1 q) rfl (ix1 c) ?_
  intro b
  match b with
  | ⟨0, _⟩ => exact hq.symm

/-- Position 64 + c of the two bias vectors joined end to end is position c of the second. -/
theorem bcat_hi (a5 a7 : FVec Ideal S64 .f32) (q : Fin 128) (c : Fin 64) (hq : q.val = c.val + 64) :
    KStretch.bcat a5 a7 (ix2 (0 : Fin 1) q) = a7 (ix1 c) := by
  rw [bcat_row]
  refine concatenate_pair_apply_right _ a5 a7 concatenates_S64_S64_S128_d0 (ix1 q) rfl rfl (ix1 c) ?_ ?_
  · intro b hb
    match b with
    | ⟨0, _⟩ => exact absurd rfl hb
  · show c.val + 64 = q.val
    omega

/-- The first-layer bias vector as a row, at a column: the vector at that position. -/
theorem brow_apply (a3 : FVec Ideal S128 .f32) (q : Fin 128) :
    KStretch.brow a3 (ix2 (0 : Fin 1) q) = a3 (ix1 q) := by
  unfold KStretch.brow
  refine shapeCast_apply a3 shapeCasts_S128_S1x128 (ix2 (0 : Fin 1) q) (ix1 q) ?_
  rewrite [Shape.rowMajor_val_two, Shape.rowMajor_val_one]
  show q.val = 0 * 128 + q.val
  omega

/-! ## The two halves of the fused output -/

/-- The first 64 columns: column c of the cut is column c of the array. -/
theorem cutLo_apply (y : FVec Ideal S100000x128 .f32) (v : Fin 100000) (c : Fin 64) (q : Fin 128) (hq : q.val = c.val) :
    KStretch.cutLo y (ix2 v c) = y (ix2 v q) := by
  unfold KStretch.cutLo
  refine extractStridedSlice_apply ![0, 0] y slices_S100000x128_S100000x64_0_0 (ix2 v c) (ix2 v q) ?_
  intro a
  match a with
  | ⟨0, _⟩ => show v.val = 0 + v.val; omega
  | ⟨1, _⟩ => show q.val = 0 + c.val; omega

/-- The last 64 columns: column c of the cut is column 64 + c of the array. -/
theorem cutHi_apply (y : FVec Ideal S100000x128 .f32) (v : Fin 100000) (c : Fin 64) (q : Fin 128) (hq : q.val = c.val + 64) :
    KStretch.cutHi y (ix2 v c) = y (ix2 v q) := by
  unfold KStretch.cutHi
  refine extractStridedSlice_apply ![0, 64] y slices_S100000x128_S100000x64_0_64 (ix2 v c) (ix2 v q) ?_
  intro a
  match a with
  | ⟨0, _⟩ => show v.val = 0 + v.val; omega
  | ⟨1, _⟩ => show q.val = 64 + c.val; omega

/-- The second kernel's value before the column split, at row v and a column q below 64 that is column c of the
    first weight matrix. -/
theorem lin_lo (g : FVec Ideal S100000x128 .f32) (a4 a6 : FVec Ideal S128x64 .f32) (a5 a7 : FVec Ideal S64 .f32)
    (v : Fin 100000) (q : Fin 128) (c : Fin 64) (hq : q.val = c.val) :
    KBlocks.lin g (KStretch.wcat a4 a6) (KStretch.bcat a5 a7) (ix2 v q)
      = (∑ k : Fin 128, g (ix2 v k) * a4 (ix2 k c)) + a5 (ix1 c) := by
  show (∑ k : Fin 128, g (ix2 v k) * KStretch.wcat a4 a6 (ix2 k q)) + KStretch.bcat a5 a7 (ix2 (0 : Fin 1) q) = _
  rw [bcat_lo a5 a7 q c hq]
  congr 1
  exact Finset.sum_congr rfl fun k _ => by rw [wcat_lo a4 a6 k q c hq]

/-- The same at a column q = 64 + c: column c of the second weight matrix. -/
theorem lin_hi (g : FVec Ideal S100000x128 .f32) (a4 a6 : FVec Ideal S128x64 .f32) (a5 a7 : FVec Ideal S64 .f32)
    (v : Fin 100000) (q : Fin 128) (c : Fin 64) (hq : q.val = c.val + 64) :
    KBlocks.lin g (KStretch.wcat a4 a6) (KStretch.bcat a5 a7) (ix2 v q)
      = (∑ k : Fin 128, g (ix2 v k) * a6 (ix2 k c)) + a7 (ix1 c) := by
  show (∑ k : Fin 128, g (ix2 v k) * KStretch.wcat a4 a6 (ix2 k q)) + KStretch.bcat a5 a7 (ix2 (0 : Fin 1) q) = _
  rw [bcat_hi a5 a7 q c hq]
  congr 1
  exact Finset.sum_congr rfl fun k _ => by rw [wcat_hi a4 a6 k q c hq]

/-- The first half of the fused output: the linear map with the first weight matrix and bias. -/
theorem mu_apply (g : FVec Ideal S100000x128 .f32) (a4 a6 : FVec Ideal S128x64 .f32) (a5 a7 : FVec Ideal S64 .f32)
    (v : Fin 100000) (c : Fin 64) :
    KStretch.cutLo (KBlocks.G1 g (KStretch.wcat a4 a6) (KStretch.bcat a5 a7)) (ix2 v c)
      = (∑ k : Fin 128, g (ix2 v k) * a4 (ix2 k c)) + a5 (ix1 c) := by
  have hc := c.isLt
  rw [cutLo_apply _ v c ⟨c.val, by omega⟩ rfl]
  unfold KBlocks.G1
  show (if c.val < 64 then _ else _) = _
  rw [if_pos hc]
  exact lin_lo g a4 a6 a5 a7 v ⟨c.val, by omega⟩ c rfl

/-- The second half of the fused output: the linear map with the second weight matrix and bias, capped at the
    constant the pattern 0x41200000 denotes. -/
theorem ls_apply (g : FVec Ideal S100000x128 .f32) (a4 a6 : FVec Ideal S128x64 .f32) (a5 a7 : FVec Ideal S64 .f32)
    (v : Fin 100000) (c : Fin 64) :
    KStretch.cutHi (KBlocks.G1 g (KStretch.wcat a4 a6) (KStretch.bcat a5 a7)) (ix2 v c)
      = min ((∑ k : Fin 128, g (ix2 v k) * a6 (ix2 k c)) + a7 (ix1 c)) (Ideal.ofBits .f32 0x41200000#32) := by
  have hc := c.isLt
  rw [cutHi_apply _ v c ⟨c.val + 64, by omega⟩ rfl]
  unfold KBlocks.G1
  show (if c.val + 64 < 64 then _ else _) = _
  rw [if_neg (by omega)]
  rw [lin_hi g a4 a6 a5 a7 v ⟨c.val + 64, by omega⟩ c rfl]

end Cert.KernelIdeal.KOutRead

end
-- ==== Proof.RefDinvReal.lean ====
/-
  The normaliser of the reference is a real number.

  The degree of node v is 0 + Σ_{e lands on v} 1: a scatter-add of the constant 1 (the pattern 0x3F800000) into the
  zero array, along the target column of the edge list extended by one self loop per node. A finite sum of real
  numbers is real, so every degree is real. The normaliser is the reciprocal square root of the degree where the
  degree is positive and 0 elsewhere; the reciprocal square root of a positive real is the real 1 / √r, and 0 is real.
-/
import proofs.«176023_j65481071395096_2_alg».proof.Proof.RefReadP
import proofs.«176023_j65481071395096_2_alg».proof.Proof.LibRowGatherScatter
import proofs.«176023_j65481071395096_2_alg».proof.Proof.LibGcnLayer

noncomputable section

open scoped BigOperators

namespace Cert.ReferenceIdeal.DinvReal

open Idealize.ShloMosaic Idealize.ShloMosaic.ValueIdx Cert.ReferenceIdeal Cert.ReferenceIdeal.Gen Cert.GcnLaw

/-- The pattern 0x3F800000 denotes the real number 1. -/
theorem one_f32 : Ideal.ofBits .f32 0x3F800000#32 = ((1 : ℝ) : EReal) := by
  simp [Ideal.ofBits, Ideal.ieee, -EReal.coe_mul]; norm_num

/-- The reciprocal square root of a positive real number is a real number. -/
theorem isReal_rsqrt_pos (r : ℝ) (h : 0 < r) : IsReal (Ideal.rsqrt (r : EReal)) := by
  show IsReal (if r < 0 then ⊥ else if r = 0 then ⊤ else (((Real.sqrt r)⁻¹ : ℝ) : EReal))
  rw [if_neg (not_lt.2 h.le), if_neg h.ne']
  exact ⟨_, rfl⟩

/-- The degree of a node — zero plus one for every edge that lands on it — is a real number. -/
theorem deg_real (a1 : IVec S2x1000000 32) (i : S100000.Idx) : IsReal (ReadP.val_main_v10 (F := Ideal) a1 i) := by
  obtain ⟨v, rfl⟩ : ∃ v, i = ix1 v := ⟨i 0, eq_ix1 i⟩
  unfold ReadP.val_main_v10
  have hrec : scatter_S100000_S1100000x1_S1100000_n_0_0_1
      = RowOps.scatterVecDims 100000 1100000 Facts₀.scatter_S100000_S1100000x1_S1100000_n_0_0_1_wf := rfl
  rw [hrec, RowOps.scatterAdd_vec_apply]
  refine IsReal.add ?_ (IsReal.sum _ _ fun e _ => ?_)
  · rw [ReadP.val_main_v8_apply, ReadP.val_main_cst_0_apply, Ideal.ofBits_def, Ideal.ofBits_zero_f32]
    exact IsReal.zero
  · rw [ReadP.val_main_v7_apply, ReadP.val_main_cst_apply, Ideal.ofBits_def, one_f32]
    exact IsReal.coe 1

/-- The normaliser of a node — the reciprocal square root of its degree where the degree is positive, zero
    elsewhere — is a real number. -/
theorem dinv_real (a1 : IVec S2x1000000 32) (i : S100000.Idx) : IsReal (ReadP.val_main_v14 (F := Ideal) a1 i) := by
  rw [ReadP.val_main_v14_apply]
  by_cases hb : ReadP.val_main_v12 (F := Ideal) a1 i = 1#1
  · rw [hb, select_one, ReadP.val_main_v13_apply]
    obtain ⟨r, hr⟩ := deg_real a1 i
    rw [ReadP.val_main_v12_apply, ReadP.val_main_v11_apply, ReadP.val_main_cst_1_apply, hr] at hb
    have hb' : BitVec.ofBool (decide (Ideal.ofBits .f32 0x00000000#32 < (r : EReal))) = 1#1 := hb
    rw [Ideal.ofBits_zero_f32] at hb'
    have hpos : 0 < r := by
      by_cases hlt : (0 : EReal) < (r : EReal)
      · exact EReal.coe_pos.1 hlt
      · rw [decide_eq_false hlt] at hb'; exact absurd hb' (by decide)
    rw [hr]
    exact isReal_rsqrt_pos r hpos
  · rw [eq_zero_of_ne_one hb, select_zero, ReadP.val_main_call0_v1_apply, ReadP.val_main_call0_v0_apply,
      ReadP.val_main_cst_2_apply, Ideal.ofBits_def, Ideal.ofBits_zero_f32]
    exact IsReal.zero

end Cert.ReferenceIdeal.DinvReal

end
-- ==== Proof.Bridge.lean ====
/-
  The idealized kernel and the idealized reference compute the same two arrays.

  Read at an entry, the kernel's first result is a second graph-convolution layer in the order aggregate-then-transform, on
  hidden features that are a first layer in that order clipped below at zero; the reference's is the same two layers in the
  order transform-then-aggregate, over the same edge lists and the same normalisers. The two orders agree when every entry is
  a real number (the layer law), which the precondition gives for the seven float arguments and the degrees give for the
  normalisers (a finite count's inverse square root, or zero). The second result is the same with the other pair of
  second-layer weights and a clip above at the literal 10 on both sides.
-/
import proofs.«176023_j65481071395096_2_alg».proof.Proof.KValue
import proofs.«176023_j65481071395096_2_alg».proof.Proof.KStretchRead
import proofs.«176023_j65481071395096_2_alg».proof.Proof.KOutRead
import proofs.«176023_j65481071395096_2_alg».proof.Proof.RefValue
import proofs.«176023_j65481071395096_2_alg».proof.Proof.RefDinvReal
import proofs.«176023_j65481071395096_2_alg».proof.Proof.GcnSpec

set_option maxRecDepth 16384

noncomputable section

namespace Cert.Bridge

open Cert.KernelIdeal Idealize.ShloMosaic Idealize.ShloMosaic.ValueIdx Cert.GcnLaw Cert.GcnSpec
open Cert.ReferenceIdeal.RefValue (dv gs gd hit)

variable (a0 : FVec Ideal S100000x64 .f32) (a1 : IVec S2x1000000 32) (a2 : FVec Ideal S64x128 .f32) (a3 : FVec Ideal S128 .f32)
  (a4 : FVec Ideal S128x64 .f32) (a5 : FVec Ideal S64 .f32) (a6 : FVec Ideal S128x64 .f32) (a7 : FVec Ideal S64 .f32)

/-- The kernel's hidden features as an array. -/
def kHidden : FVec Ideal S100000x128 .f32 :=
  KBlocks.G0 (KStretch.agg64 (F := Ideal) a0 (KStretch.dcolOf (F := Ideal) (Cert.ReferenceIdeal.ReadP.val_main_v14 (F := Ideal) a1))
      (Cert.ReferenceIdeal.ReadP.val_main_v3 (F := Ideal) a1) (Cert.ReferenceIdeal.ReadP.val_main_v6 (F := Ideal) a1))
    a2 (KStretch.brow (F := Ideal) a3)

/-- The kernel's second-layer output as an array (both halves). -/
def kOut : FVec Ideal S100000x128 .f32 :=
  KBlocks.G1 (KStretch.agg128 (F := Ideal) (kHidden a0 a1 a2 a3) (KStretch.dcolOf (F := Ideal) (Cert.ReferenceIdeal.ReadP.val_main_v14 (F := Ideal) a1))
      (Cert.ReferenceIdeal.ReadP.val_main_v3 (F := Ideal) a1) (Cert.ReferenceIdeal.ReadP.val_main_v6 (F := Ideal) a1))
    (KStretch.wcat (F := Ideal) a4 a6) (KStretch.bcat (F := Ideal) a5 a7)

/-- The kernel's hidden features at (u, k): the first layer, aggregate-then-transform, clipped below at zero. -/
theorem kHidden_apply (u : Fin 100000) (k : Fin 128) :
    kHidden a0 a1 a2 a3 (ix2 u k)
      = hiddenA (dv a1) (gs a1) (hit a1) (fun u k => a0 (ix2 u k)) (fun j k => a2 (ix2 j k)) (fun k => a3 (ix1 k)) u k := by
  unfold kHidden KBlocks.G0 hiddenA layerA
  show max ((∑ j : Fin 64, KStretch.agg64 (F := Ideal) a0 _ _ _ (ix2 u j) * a2 (ix2 j k)) + KStretch.brow (F := Ideal) a3 (ix2 (0 : Fin 1) k))
      (Ideal.ofBits .f32 0x00000000#32) = _
  rw [KOutRead.brow_apply, Ideal.ofBits_zero_f32]
  simp only [KStretchRead.agg64_ref]

/-- The kernel's aggregated hidden features at (v, k). -/
theorem kAggH_apply (v : Fin 100000) (k : Fin 128) :
    KStretch.agg128 (F := Ideal) (kHidden a0 a1 a2 a3) (KStretch.dcolOf (F := Ideal) (Cert.ReferenceIdeal.ReadP.val_main_v14 (F := Ideal) a1))
        (Cert.ReferenceIdeal.ReadP.val_main_v3 (F := Ideal) a1) (Cert.ReferenceIdeal.ReadP.val_main_v6 (F := Ideal) a1) (ix2 v k)
      = agg (dv a1) (gs a1) (hit a1)
          (hiddenA (dv a1) (gs a1) (hit a1) (fun u k => a0 (ix2 u k)) (fun j k => a2 (ix2 j k)) (fun k => a3 (ix1 k))) v k := by
  rw [KStretchRead.agg128_ref]
  have hf : (fun (u : Fin 100000) (k : Fin 128) => kHidden a0 a1 a2 a3 (ix2 u k))
      = hiddenA (dv a1) (gs a1) (hit a1) (fun u k => a0 (ix2 u k)) (fun j k => a2 (ix2 j k)) (fun k => a3 (ix1 k)) :=
    funext fun u => funext fun k' => kHidden_apply a0 a1 a2 a3 u k'
  rw [hf]

/-- The kernel's first result at (v, c): the second layer with the first pair of weights, aggregate-then-transform. -/
theorem kMu_apply (v : Fin 100000) (c : Fin 64) :
    KStretch.cutLo (F := Ideal) (kOut a0 a1 a2 a3 a4 a5 a6 a7) (ix2 v c)
      = layerA (dv a1) (gs a1) (hit a1)
          (hiddenA (dv a1) (gs a1) (hit a1) (fun u k => a0 (ix2 u k)) (fun j k => a2 (ix2 j k)) (fun k => a3 (ix1 k)))
          (fun k c => a4 (ix2 k c)) (fun c => a5 (ix1 c)) v c := by
  unfold kOut
  rw [KOutRead.mu_apply]
  unfold layerA
  simp only [kAggH_apply]

/-- The kernel's second result at (v, c): the second layer with the second pair of weights, clipped above at 10. -/
theorem kLs_apply (v : Fin 100000) (c : Fin 64) :
    KStretch.cutHi (F := Ideal) (kOut a0 a1 a2 a3 a4 a5 a6 a7) (ix2 v c)
      = min (layerA (dv a1) (gs a1) (hit a1)
          (hiddenA (dv a1) (gs a1) (hit a1) (fun u k => a0 (ix2 u k)) (fun j k => a2 (ix2 j k)) (fun k => a3 (ix1 k)))
          (fun k c => a6 (ix2 k c)) (fun c => a7 (ix1 c)) v c) (Ideal.ofBits .f32 0x41200000#32) := by
  unfold kOut
  rw [KOutRead.ls_apply]
  unfold layerA
  simp only [kAggH_apply]

section Real
variable (h0 : ∀ i, ∃ r : ℝ, a0 i = ((r : ℝ) : EReal)) (h2 : ∀ i, ∃ r : ℝ, a2 i = ((r : ℝ) : EReal))
  (h3 : ∀ i, ∃ r : ℝ, a3 i = ((r : ℝ) : EReal)) (h4 : ∀ i, ∃ r : ℝ, a4 i = ((r : ℝ) : EReal))
  (h6 : ∀ i, ∃ r : ℝ, a6 i = ((r : ℝ) : EReal))

include h0 h2 h3 h4 in
/-- THE FIRST RESULTS AGREE: the kernel's first result is the reference's, as arrays, when the float arguments are real. -/
theorem mu_eq :
    KStretch.cutLo (F := Ideal) (kOut a0 a1 a2 a3 a4 a5 a6 a7)
      = Cert.ReferenceIdeal.ReadP.val_main_v64 (F := Ideal) a0 a1 a2 a3 a4 a5 := by
  funext i
  obtain ⟨v, c, rfl⟩ : ∃ (v : Fin 100000) (c : Fin 64), i = ix2 v c := ⟨i 0, i 1, eq_ix2 i⟩
  rw [kMu_apply, Cert.ReferenceIdeal.RefValue.mu_apply]
  exact encoder_eq (dv a1) (gs a1) (gd a1) (hit a1) _ _ _ _ _ (fun u k => h0 _) (fun j k => h2 _) (fun k => h3 _) (fun k c => h4 _)
    (fun u => Cert.ReferenceIdeal.DinvReal.dinv_real a1 (ix1 u)) (fun e v => Cert.ReferenceIdeal.RefValue.gd_of_hit a1 e v) v c

include h0 h2 h3 h6 in
/-- THE SECOND RESULTS AGREE. -/
theorem ls_eq :
    KStretch.cutHi (F := Ideal) (kOut a0 a1 a2 a3 a4 a5 a6 a7)
      = Cert.ReferenceIdeal.ReadP.val_main_v83 (F := Ideal) a0 a1 a2 a3 a6 a7 := by
  funext i
  obtain ⟨v, c, rfl⟩ : ∃ (v : Fin 100000) (c : Fin 64), i = ix2 v c := ⟨i 0, i 1, eq_ix2 i⟩
  rw [kLs_apply, Cert.ReferenceIdeal.RefValue.ls_apply]
  rw [encoder_eq (dv a1) (gs a1) (gd a1) (hit a1) (fun u k => a0 (ix2 u k)) (fun j k => a2 (ix2 j k)) (fun k => a3 (ix1 k))
    (fun k c => a6 (ix2 k c)) (fun c => a7 (ix1 c)) (fun u k => h0 _) (fun j k => h2 _) (fun k => h3 _) (fun k c => h6 _)
    (fun u => Cert.ReferenceIdeal.DinvReal.dinv_real a1 (ix1 u)) (fun e v => Cert.ReferenceIdeal.RefValue.gd_of_hit a1 e v) v c]

end Real

end Cert.Bridge

end
-- ==== Proof.FiniteInputs.lean ====
/-
  Finiteness of the float arguments, read off the precondition.

  At the extended reals a float is an element of [-∞, +∞]; the bit pattern 0x7F800000 is +∞, the
  absolute value of x is max x (-x), and the ordered comparison "less than" is the strict order. The
  precondition is the conjunction, by `and` on one-bit words, of seven terms `all(|a| < +∞)`, one per float
  argument array; each `all` is a reduction by `and`, from 1, over every axis. If the conjunction is 1 then
  every term is 1, so every compared entry is 1, so |a i| < +∞ for every index i; an extended real with
  max x (-x) < ⊤ is neither ⊤ nor ⊥, hence a real number.
-/
import proofs.«176023_j65481071395096_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The rank-0 shape has exactly one index. -/
instance subsingleton_S_Idx : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the compared array: if the comparison |x| < +∞ answers 1, then x is real. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [inf_eq_top] at h'
  by_cases hlt : max x (-x) < ⊤
  · exact hlt
  · rw [decide_eq_false hlt] at h'; exact absurd h' (by decide)

/-- One `all(|a| < +∞)`: if the reduction by `and` of the compared array answers 1, every entry of `a` is real. -/
theorem real_of_all {s : Shape} {axes : List (Fin s.rank)} (hb : S_.BroadcastsInDim s (![] : Fin 0 → Fin s.rank))
    (hr : s.ReducesTo axes S_) (hu : 0 < S_.numel) (a : FVec Ideal s .f32)
    (h : Host.reduce IntOp.andi
          (cmpf .olt (Host.absf a) (broadcastInDim s ![] hb (constant (F := Ideal) S_ .f32 0x7F800000#32)))
          (constantI S_ 1 1#1) hr hu ix0 = 1#1) :
    ∀ i, ∃ r : ℝ, a i = (r : EReal) := by
  intro i
  have e := Host.reduce_andi_all _ _ hr hu ix0 h i
  exact real_of_cmp (a i) e

/-- The precondition, all ones at the extended reals, makes every float argument array an array of real
    numbers: the predicate is the conjunction (by `and` on `i1`) of seven `all(|a| < +∞)`, one per float argument. -/
theorem real_of_pre [Cert.Pre_finite_inputs.Facts]
    (a0 : FVec Ideal S100000x64 .f32) (a1 : IVec S2x1000000 32) (a2 : FVec Ideal S64x128 .f32)
    (a3 : FVec Ideal S128 .f32) (a4 : FVec Ideal S128x64 .f32) (a5 : FVec Ideal S64 .f32)
    (a6 : FVec Ideal S128x64 .f32) (a7 : FVec Ideal S64 .f32)
    (h : Cert.Pre_finite_inputs.fn (F := Ideal) a0 a1 a2 a3 a4 a5 a6 a7 = (fun _ => 1#1)) :
    (∀ i, ∃ r : ℝ, a0 i = ((r : ℝ) : EReal)) ∧ (∀ i, ∃ r : ℝ, a2 i = ((r : ℝ) : EReal)) ∧ (∀ i, ∃ r : ℝ, a3 i = ((r : ℝ) : EReal))
      ∧ (∀ i, ∃ r : ℝ, a4 i = ((r : ℝ) : EReal)) ∧ (∀ i, ∃ r : ℝ, a5 i = ((r : ℝ) : EReal)) ∧ (∀ i, ∃ r : ℝ, a6 i = ((r : ℝ) : EReal))
      ∧ (∀ i, ∃ r : ℝ, a7 i = ((r : ℝ) : EReal)) := by
  have e := congrFun h ix0
  dsimp only [fn, fn_part1, Idealize.ShloMosaic.andi] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨real_of_all _ _ _ a0 e0, real_of_all _ _ _ a2 e2, real_of_all _ _ _ a3 e3, real_of_all _ _ _ a4 e4,
    real_of_all _ _ _ a5 e5, real_of_all _ _ _ a6 e6, real_of_all _ _ _ a7 e7⟩

end Cert.FiniteInputs

end
-- ==== Proof.Claims.lean ====
/-
  The five claims.

  The three frames: the word-level kernel's and the idealized kernel's are the generated frame certificates (two matrix
  kernels among stretches of host operations), and the idealized reference's is its run with the results dropped. The
  idealization rewrote no operation, so there is nothing to preserve. For the value claim the idealized kernel's run ends
  with its two result buffers at the last boundary's contents, which read back through the two kernels and the host
  operations are two graph-convolution layers in the order aggregate-then-transform; the reference's run ends with the same
  layers in the order transform-then-aggregate. Under the precondition every float argument is real, the normalisers are
  real, and the two orders agree entry by entry.
-/
import proofs.«176023_j65481071395096_2_alg».proof.Defs
import proofs.«176023_j65481071395096_2_alg».proof.Proof.Gen.Kernel
import proofs.«176023_j65481071395096_2_alg».proof.Proof.Gen.Kernel.Frame
import proofs.«176023_j65481071395096_2_alg».proof.Proof.Gen.KernelIdeal
import proofs.«176023_j65481071395096_2_alg».proof.Proof.Gen.KernelIdeal.Frame
import proofs.«176023_j65481071395096_2_alg».proof.Proof.Gen.ReferenceIdeal
import proofs.«176023_j65481071395096_2_alg».proof.Proof.Gen.Pre_finite_inputs
import proofs.«176023_j65481071395096_2_alg».proof.Proof.RefRunP
import proofs.«176023_j65481071395096_2_alg».proof.Proof.RefReadP
import proofs.«176023_j65481071395096_2_alg».proof.Proof.KernelRun
import proofs.«176023_j65481071395096_2_alg».proof.Proof.KValue
import proofs.«176023_j65481071395096_2_alg».proof.Proof.Bridge
import proofs.«176023_j65481071395096_2_alg».proof.Proof.FiniteInputs

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- The two idealized programs, from memories that agree on the arguments, end with equal results. -/
theorem algebraic : Cert.algebraic_KernelIdeal_ReferenceIdeal := by
  intro m ρ m' ρ' hpre hagree
  refine ⟨fun c => Cert.KernelIdeal.Gen.W7 m ρ c (Proc.devRef .tc Cert.KernelIdeal.main_v50),
    fun c => Cert.KernelIdeal.Gen.W7 m ρ c (Proc.devRef .tc Cert.KernelIdeal.main_v51),
    Cert.KernelIdeal.KRun.run m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨e0, e1, e2, e3, e4, e5, e6, e7⟩ := hagree c
    obtain ⟨h0, h2, h3, h4, h5, h6, h7⟩ := Cert.FiniteInputs.real_of_pre _ _ _ _ _ _ _ _ (hpre c)
    rw [Cert.ReferenceIdeal.ReadP.val_main_v64_eq, e0, e1, e2, e3, e4, e5]
    exact ((Cert.Bridge.mu_eq _ _ _ _ _ _ (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) h0 h2 h3 h4).symm).trans
      (Cert.KernelIdeal.KValue.result0 m ρ c).symm
  · obtain ⟨e0, e1, e2, e3, e4, e5, e6, e7⟩ := hagree c
    obtain ⟨h0, h2, h3, h4, h5, h6, h7⟩ := Cert.FiniteInputs.real_of_pre _ _ _ _ _ _ _ _ (hpre c)
    rw [Cert.ReferenceIdeal.ReadP.val_main_v83_eq, e0, e1, e2, e3, e6, e7]
    exact ((Cert.Bridge.ls_eq _ _ _ _ (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) _ _ h0 h2 h3 h6).symm).trans
      (Cert.KernelIdeal.KValue.result1 m ρ c).symm

end Cert.Proof.Claims

end
-- ==== Proof.lean ====
/-
  A two-layer graph-convolution encoder: a TPU implementation against its reference, equal on the extended reals.

  Both programs normalise a graph's adjacency (edge list plus one self-loop per node) by the inverse square roots of the
  in-degrees and apply a first layer clipped below at zero and two second layers (the second clipped above at 10). The
  reference transforms the features and then aggregates them over the edges; the implementation aggregates first and
  transforms afterwards in two matrix kernels over blocks of 10000 rows, the two second layers fused into one product with
  the weight matrices joined along the columns. The claims are proved in Proof/Claims.lean; this file assembles them under
  the witnesses of the programs' stated side conditions.
-/
import proofs.«176023_j65481071395096_2_alg».proof.Defs
import proofs.«176023_j65481071395096_2_alg».proof.Proof.Gen.Kernel
import proofs.«176023_j65481071395096_2_alg».proof.Proof.Gen.Kernel.Skeleton
import proofs.«176023_j65481071395096_2_alg».proof.Proof.Gen.Kernel.Launch
import proofs.«176023_j65481071395096_2_alg».proof.Proof.Gen.Kernel.Points
import proofs.«176023_j65481071395096_2_alg».proof.Proof.Gen.Kernel.Frame
import proofs.«176023_j65481071395096_2_alg».proof.Proof.Gen.KernelIdeal
import proofs.«176023_j65481071395096_2_alg».proof.Proof.Gen.KernelIdeal.Skeleton
import proofs.«176023_j65481071395096_2_alg».proof.Proof.Gen.KernelIdeal.Launch
import proofs.«176023_j65481071395096_2_alg».proof.Proof.Gen.KernelIdeal.Points
import proofs.«176023_j65481071395096_2_alg».proof.Proof.Gen.KernelIdeal.Frame
import proofs.«176023_j65481071395096_2_alg».proof.Proof.Gen.ReferenceIdeal
import proofs.«176023_j65481071395096_2_alg».proof.Proof.Gen.Pre_finite_inputs
import proofs.«176023_j65481071395096_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
